-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x7 : Shape := ⟨2, ![4000000, 7]⟩
abbrev S_ : Shape := ⟨0, ![]⟩

class Facts : Prop where
  bcast_S_S4000000x7 : S_.BroadcastsInDim S4000000x7 (![] : Fin 0 → Fin S4000000x7.rank)
  reducesTo_S4000000x7_S_d0_1 : S4000000x7.ReducesTo [0, 1] S_
  h_S_ : 0 < S_.numel

variable [Facts]

def fn {F : FTy → Type} [FloatOps F] (main_arg0 : FVec F S4000000x7 .f32) (main_arg1 : FVec F S4000000x7 .f32) : IVec S_ 1 :=
  let main_v0 : FVec F S4000000x7 .f32 := Host.absf main_arg0
  let main_cst : FVec F S_ .f32 := constant S_ .f32 0x7F800000#32
  let main_v1 : FVec F S4000000x7 .f32 := broadcastInDim S4000000x7 ![] bcast_S_S4000000x7 main_cst
  let main_v2 : IVec S4000000x7 1 := cmpf .olt main_v0 main_v1
  let main_c : IVec S_ 1 := constantI S_ 1 1#1
  let main_v3 : IVec S_ 1 := (fun x v => Host.reduce IntOp.andi x v reducesTo_S4000000x7_S_d0_1 h_S_) main_v2 main_c
  let main_v4 : FVec F S4000000x7 .f32 := Host.absf main_arg1
  let main_cst_0 : FVec F S_ .f32 := constant S_ .f32 0x7F800000#32
  let main_v5 : FVec F S4000000x7 .f32 := broadcastInDim S4000000x7 ![] bcast_S_S4000000x7 main_cst_0
  let main_v6 : IVec S4000000x7 1 := cmpf .olt main_v4 main_v5
  let main_c_1 : IVec S_ 1 := constantI S_ 1 1#1
  let main_v7 : IVec S_ 1 := (fun x v => Host.reduce IntOp.andi x v reducesTo_S4000000x7_S_d0_1 h_S_) main_v6 main_c_1
  let main_v8 : IVec S_ 1 := andi main_v3 main_v7
  main_v8
-- ==== Kernel.lean ====
abbrev S4000000x7 : Shape := ⟨2, ![4000000, 7]⟩
abbrev S7x4000000 : Shape := ⟨2, ![7, 4000000]⟩
abbrev S1x4000000 : Shape := ⟨2, ![1, 4000000]⟩
abbrev S7x32000 : Shape := ⟨2, ![7, 32000]⟩
abbrev S1x32000 : Shape := ⟨2, ![1, 32000]⟩
abbrev S4000000x1 : Shape := ⟨2, ![4000000, 1]⟩

abbrev nBuf : Space → Nat
  | .hbm => 6
  | .vmem => 6
  | .smem => 0
  | _ => 0

abbrev bufTy : (tb : Table) → Fin (tcTables nBuf tb) → BufTy
  | .hbm, ⟨0, _⟩ => ⟨S4000000x7, .f32⟩
  | .hbm, ⟨1, _⟩ => ⟨S4000000x7, .f32⟩
  | .hbm, ⟨2, _⟩ => ⟨S7x4000000, .f32⟩
  | .hbm, ⟨3, _⟩ => ⟨S7x4000000, .f32⟩
  | .hbm, ⟨4, _⟩ => ⟨S1x4000000, .f32⟩
  | .hbm, ⟨5, _⟩ => ⟨S4000000x1, .f32⟩
  | .local _ .vmem, ⟨0, _⟩ => ⟨S7x32000, .f32⟩
  | .local _ .vmem, ⟨1, _⟩ => ⟨S7x32000, .f32⟩
  | .local _ .vmem, ⟨2, _⟩ => ⟨S7x32000, .f32⟩
  | .local _ .vmem, ⟨3, _⟩ => ⟨S7x32000, .f32⟩
  | .local _ .vmem, ⟨4, _⟩ => ⟨S1x32000, .f32⟩
  | .local _ .vmem, ⟨5, _⟩ => ⟨S1x32000, .f32⟩
  | _, _ => ⟨S4000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4000000x7_S7x4000000_1_0 : S4000000x7.Transposes [1, 0] S7x4000000
  inb_S7x32000_S7x32000_0_0 : ∀ a, (![0, 0] : Fin 2 → Nat) a + S7x32000.size a ≤ S7x32000.size a
  h_S7x32000 : 0 < S7x32000.numel
  shapeCasts_S7x32000_S7x32000 : S7x32000.ShapeCasts S7x32000
  slices_S7x32000_o0_0_S1x32000 : S7x32000.Slices ![0, 0] S1x32000
  slices_S7x32000_o2_0_S1x32000 : S7x32000.Slices ![2, 0] S1x32000
  slices_S7x32000_o3_0_S1x32000 : S7x32000.Slices ![3, 0] S1x32000
  slices_S7x32000_o5_0_S1x32000 : S7x32000.Slices ![5, 0] S1x32000
  slices_S7x32000_o1_0_S1x32000 : S7x32000.Slices ![1, 0] S1x32000
  slices_S7x32000_o4_0_S1x32000 : S7x32000.Slices ![4, 0] S1x32000
  inb_S1x32000_S1x32000_0_0 : ∀ a, (![0, 0] : Fin 2 → Nat) a + S1x32000.size a ≤ S1x32000.size a
  h_S1x32000 : 0 < S1x32000.numel
  shapeCasts_S1x4000000_S4000000x1 : S1x4000000.ShapeCasts S4000000x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x32000.size a ≤ S7x4000000.size a
  hwx0_0 : ∀ i : grid0.Coords, EltTy.bits .f32 = 32 ∨ (Rect.block (s := S7x4000000) S7x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x32000.size a ≤ S7x4000000.size a
  hwx0_1 : ∀ i : grid0.Coords, EltTy.bits .f32 = 32 ∨ (Rect.block (s := S7x4000000) S7x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32000.size a ≤ S1x4000000.size a
  hwx0_2 : ∀ i : grid0.Coords, EltTy.bits .f32 = 32 ∨ (Rect.block (s := S1x4000000) S1x32000.size (cc0_transform_2 i) (hinb0_2 i)).WholeWords (EltTy.packing .f32)

variable [Facts₀]

abbrev win0_0 : Pipeline.Window sig grid0 :=
  Pipeline.Window.ofSpec (Memref.whole main_v0) S7x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x7 : Shape := ⟨2, ![4000000, 7]⟩
abbrev S4000000x1 : Shape := ⟨2, ![4000000, 1]⟩
abbrev S4000000 : Shape := ⟨1, ![4000000]⟩
abbrev S_ : Shape := ⟨0, ![]⟩

abbrev nBuf : Space → Nat
  | .hbm => 384
  | .vmem => 0
  | .smem => 0
  | _ => 0

abbrev hbmTy0_0 (i : Nat) : BufTy := match i % 128 with
  | 0 => ⟨S4000000x7, .f32⟩
  | 1 => ⟨S4000000x7, .f32⟩
  | 2 => ⟨S4000000x1, .f32⟩
  | 3 => ⟨S4000000, .f32⟩
  | 4 => ⟨S4000000x1, .f32⟩
  | 5 => ⟨S4000000, .f32⟩
  | 6 => ⟨S_, .f32⟩
  | 7 => ⟨S4000000, .f32⟩
  | 8 => ⟨S4000000, .f32⟩
  | 9 => ⟨S4000000, .f32⟩
  | 10 => ⟨S4000000x1, .f32⟩
  | 11 => ⟨S4000000, .f32⟩
  | 12 => ⟨S4000000x1, .f32⟩
  | 13 => ⟨S4000000, .f32⟩
  | 14 => ⟨S_, .f32⟩
  | 15 => ⟨S4000000, .f32⟩
  | 16 => ⟨S4000000, .f32⟩
  | 17 => ⟨S4000000, .f32⟩
  | 18 => ⟨S4000000x1, .f32⟩
  | 19 => ⟨S4000000, .f32⟩
  | 20 => ⟨S4000000x1, .f32⟩
  | 21 => ⟨S4000000, .f32⟩
  | 22 => ⟨S_, .f32⟩
  | 23 => ⟨S4000000, .f32⟩
  | 24 => ⟨S4000000, .f32⟩
  | 25 => ⟨S4000000, .f32⟩
  | 26 => ⟨S4000000x1, .f32⟩
  | 27 => ⟨S4000000, .f32⟩
  | 28 => ⟨S4000000x1, .f32⟩
  | 29 => ⟨S4000000, .f32⟩
  | 30 => ⟨S_, .f32⟩
  | 31 => ⟨S4000000, .f32⟩
  | 32 => ⟨S4000000, .f32⟩
  | 33 => ⟨S4000000, .f32⟩
  | 34 => ⟨S4000000x1, .f32⟩
  | 35 => ⟨S4000000, .f32⟩
  | 36 => ⟨S4000000x1, .f32⟩
  | 37 => ⟨S4000000, .f32⟩
  | 38 => ⟨S_, .f32⟩
  | 39 => ⟨S4000000, .f32⟩
  | 40 => ⟨S4000000, .f32⟩
  | 41 => ⟨S4000000, .f32⟩
  | 42 => ⟨S4000000x1, .f32⟩
  | 43 => ⟨S4000000, .f32⟩
  | 44 => ⟨S4000000x1, .f32⟩
  | 45 => ⟨S4000000, .f32⟩
  | 46 => ⟨S_, .f32⟩
  | 47 => ⟨S4000000, .f32⟩
  | 48 => ⟨S4000000, .f32⟩
  | 49 => ⟨S4000000, .f32⟩
  | 50 => ⟨S4000000x1, .f32⟩
  | 51 => ⟨S4000000, .f32⟩
  | 52 => ⟨S4000000x1, .f32⟩
  | 53 => ⟨S4000000, .f32⟩
  | 54 => ⟨S_, .f32⟩
  | 55 => ⟨S4000000, .f32⟩
  | 56 => ⟨S4000000, .f32⟩
  | 57 => ⟨S4000000, .f32⟩
  | 58 => ⟨S4000000x1, .f32⟩
  | 59 => ⟨S4000000, .f32⟩
  | 60 => ⟨S4000000x1, .f32⟩
  | 61 => ⟨S4000000, .f32⟩
  | 62 => ⟨S_, .f32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S_, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S_, .f32⟩
  | 76 => ⟨S4000000, .f32⟩
  | 77 => ⟨S4000000, .f32⟩
  | 78 => ⟨S_, .f32⟩
  | 79 => ⟨S4000000, .f32⟩
  | 80 => ⟨S4000000, .i1⟩
  | 81 => ⟨S_, .f32⟩
  | 82 => ⟨S4000000, .f32⟩
  | 83 => ⟨S4000000, .i1⟩
  | 84 => ⟨S4000000, .i1⟩
  | 85 => ⟨S4000000, .f32⟩
  | 86 => ⟨S_, .f32⟩
  | 87 => ⟨S_, .f32⟩
  | 88 => ⟨S4000000, .f32⟩
  | 89 => ⟨S4000000, .f32⟩
  | 90 => ⟨S4000000, .f32⟩
  | 91 => ⟨S4000000, .f32⟩
  | 92 => ⟨S4000000, .f32⟩
  | 93 => ⟨S_, .f32⟩
  | 94 => ⟨S4000000, .f32⟩
  | 95 => ⟨S4000000, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000x1, .f32⟩
  | 104 => ⟨S4000000, .f32⟩
  | 105 => ⟨S4000000x1, .f32⟩
  | 106 => ⟨S4000000, .f32⟩
  | 107 => ⟨S_, .f32⟩
  | 108 => ⟨S4000000, .f32⟩
  | 109 => ⟨S4000000, .f32⟩
  | 110 => ⟨S4000000, .f32⟩
  | 111 => ⟨S4000000x1, .f32⟩
  | 112 => ⟨S4000000, .f32⟩
  | 113 => ⟨S4000000x1, .f32⟩
  | 114 => ⟨S4000000, .f32⟩
  | 115 => ⟨S_, .f32⟩
  | 116 => ⟨S4000000, .f32⟩
  | 117 => ⟨S4000000, .f32⟩
  | 118 => ⟨S4000000, .f32⟩
  | 119 => ⟨S4000000x1, .f32⟩
  | 120 => ⟨S4000000, .f32⟩
  | 121 => ⟨S4000000x1, .f32⟩
  | 122 => ⟨S4000000, .f32⟩
  | 123 => ⟨S_, .f32⟩
  | 124 => ⟨S4000000, .f32⟩
  | 125 => ⟨S4000000, .f32⟩
  | 126 => ⟨S4000000, .f32⟩
  | 127 => ⟨S4000000x1, .f32⟩
  | _ => ⟨S4000000x7, .f32⟩

abbrev hbmTy0_1 (i : Nat) : BufTy := match i % 128 with
  | 0 => ⟨S4000000, .f32⟩
  | 1 => ⟨S4000000x1, .f32⟩
  | 2 => ⟨S4000000, .f32⟩
  | 3 => ⟨S_, .f32⟩
  | 4 => ⟨S4000000, .f32⟩
  | 5 => ⟨S4000000, .f32⟩
  | 6 => ⟨S4000000, .f32⟩
  | 7 => ⟨S4000000x1, .f32⟩
  | 8 => ⟨S4000000, .f32⟩
  | 9 => ⟨S4000000x1, .f32⟩
  | 10 => ⟨S4000000, .f32⟩
  | 11 => ⟨S_, .f32⟩
  | 12 => ⟨S4000000, .f32⟩
  | 13 => ⟨S4000000, .f32⟩
  | 14 => ⟨S4000000, .f32⟩
  | 15 => ⟨S4000000x1, .f32⟩
  | 16 => ⟨S4000000, .f32⟩
  | 17 => ⟨S4000000x1, .f32⟩
  | 18 => ⟨S4000000, .f32⟩
  | 19 => ⟨S_, .f32⟩
  | 20 => ⟨S4000000, .f32⟩
  | 21 => ⟨S4000000, .f32⟩
  | 22 => ⟨S4000000, .f32⟩
  | 23 => ⟨S4000000x1, .f32⟩
  | 24 => ⟨S4000000, .f32⟩
  | 25 => ⟨S4000000x1, .f32⟩
  | 26 => ⟨S4000000, .f32⟩
  | 27 => ⟨S_, .f32⟩
  | 28 => ⟨S4000000, .f32⟩
  | 29 => ⟨S4000000, .f32⟩
  | 30 => ⟨S4000000, .f32⟩
  | 31 => ⟨S4000000x1, .f32⟩
  | 32 => ⟨S4000000, .f32⟩
  | 33 => ⟨S4000000x1, .f32⟩
  | 34 => ⟨S4000000, .f32⟩
  | 35 => ⟨S_, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S_, .f32⟩
  | 43 => ⟨S4000000, .f32⟩
  | 44 => ⟨S4000000, .f32⟩
  | 45 => ⟨S4000000, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S_, .f32⟩
  | 52 => ⟨S4000000, .f32⟩
  | 53 => ⟨S4000000, .i1⟩
  | 54 => ⟨S_, .f32⟩
  | 55 => ⟨S4000000, .f32⟩
  | 56 => ⟨S4000000, .i1⟩
  | 57 => ⟨S4000000, .i1⟩
  | 58 => ⟨S4000000, .f32⟩
  | 59 => ⟨S_, .f32⟩
  | 60 => ⟨S_, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S_, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S_, .f32⟩
  | 73 => ⟨S4000000, .f32⟩
  | 74 => ⟨S4000000, .f32⟩
  | 75 => ⟨S4000000, .f32⟩
  | 76 => ⟨S4000000x1, .f32⟩
  | 77 => ⟨S4000000, .f32⟩
  | 78 => ⟨S4000000x1, .f32⟩
  | 79 => ⟨S4000000, .f32⟩
  | 80 => ⟨S_, .f32⟩
  | 81 => ⟨S4000000, .f32⟩
  | 82 => ⟨S4000000, .f32⟩
  | 83 => ⟨S4000000, .f32⟩
  | 84 => ⟨S4000000x1, .f32⟩
  | 85 => ⟨S4000000, .f32⟩
  | 86 => ⟨S4000000x1, .f32⟩
  | 87 => ⟨S4000000, .f32⟩
  | 88 => ⟨S_, .f32⟩
  | 89 => ⟨S4000000, .f32⟩
  | 90 => ⟨S4000000, .f32⟩
  | 91 => ⟨S4000000, .f32⟩
  | 92 => ⟨S4000000x1, .f32⟩
  | 93 => ⟨S4000000, .f32⟩
  | 94 => ⟨S4000000x1, .f32⟩
  | 95 => ⟨S4000000, .f32⟩
  | 96 => ⟨S_, .f32⟩
  | 97 => ⟨S4000000, .f32⟩
  | 98 => ⟨S4000000, .f32⟩
  | 99 => ⟨S4000000, .f32⟩
  | 100 => ⟨S4000000x1, .f32⟩
  | 101 => ⟨S4000000, .f32⟩
  | 102 => ⟨S4000000x1, .f32⟩
  | 103 => ⟨S4000000, .f32⟩
  | 104 => ⟨S_, .f32⟩
  | 105 => ⟨S4000000, .f32⟩
  | 106 => ⟨S4000000, .f32⟩
  | 107 => ⟨S4000000, .f32⟩
  | 108 => ⟨S4000000x1, .f32⟩
  | 109 => ⟨S4000000, .f32⟩
  | 110 => ⟨S4000000x1, .f32⟩
  | 111 => ⟨S4000000, .f32⟩
  | 112 => ⟨S_, .f32⟩
  | 113 => ⟨S4000000, .f32⟩
  | 114 => ⟨S4000000, .f32⟩
  | 115 => ⟨S4000000, .f32⟩
  | 116 => ⟨S4000000x1, .f32⟩
  | 117 => ⟨S4000000, .f32⟩
  | 118 => ⟨S4000000x1, .f32⟩
  | 119 => ⟨S4000000, .f32⟩
  | 120 => ⟨S_, .f32⟩
  | 121 => ⟨S4000000, .f32⟩
  | 122 => ⟨S4000000, .f32⟩
  | 123 => ⟨S4000000, .f32⟩
  | 124 => ⟨S4000000x1, .f32⟩
  | 125 => ⟨S4000000, .f32⟩
  | 126 => ⟨S4000000x1, .f32⟩
  | 127 => ⟨S4000000, .f32⟩
  | _ => ⟨S4000000x7, .f32⟩

abbrev hbmTy0_2 (i : Nat) : BufTy := match i % 128 with
  | 0 => ⟨S_, .f32⟩
  | 1 => ⟨S4000000, .f32⟩
  | 2 => ⟨S4000000, .f32⟩
  | 3 => ⟨S4000000, .f32⟩
  | 4 => ⟨S4000000x1, .f32⟩
  | 5 => ⟨S4000000, .f32⟩
  | 6 => ⟨S4000000x1, .f32⟩
  | 7 => ⟨S4000000, .f32⟩
  | 8 => ⟨S_, .f32⟩
  | 9 => ⟨S4000000, .f32⟩
  | 10 => ⟨S4000000, .f32⟩
  | 11 => ⟨S4000000, .f32⟩
  | 12 => ⟨S4000000, .f32⟩
  | 13 => ⟨S4000000, .f32⟩
  | 14 => ⟨S4000000, .f32⟩
  | 15 => ⟨S_, .f32⟩
  | 16 => ⟨S4000000, .f32⟩
  | 17 => ⟨S4000000, .f32⟩
  | 18 => ⟨S4000000, .f32⟩
  | 19 => ⟨S4000000, .f32⟩
  | 20 => ⟨S4000000, .f32⟩
  | 21 => ⟨S_, .f32⟩
  | 22 => ⟨S4000000, .f32⟩
  | 23 => ⟨S4000000, .f32⟩
  | 24 => ⟨S_, .f32⟩
  | 25 => ⟨S4000000, .f32⟩
  | 26 => ⟨S4000000, .i1⟩
  | 27 => ⟨S_, .f32⟩
  | 28 => ⟨S4000000, .f32⟩
  | 29 => ⟨S4000000, .i1⟩
  | 30 => ⟨S4000000, .i1⟩
  | 31 => ⟨S4000000, .f32⟩
  | 32 => ⟨S_, .f32⟩
  | 33 => ⟨S_, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S_, .f32⟩
  | 40 => ⟨S4000000, .f32⟩
  | 41 => ⟨S4000000, .f32⟩
  | 42 => ⟨S4000000, .f32⟩
  | 43 => ⟨S4000000, .f32⟩
  | 44 => ⟨S4000000, .f32⟩
  | 45 => ⟨S_, .f32⟩
  | 46 => ⟨S4000000, .f32⟩
  | 47 => ⟨S4000000, .f32⟩
  | 48 => ⟨S4000000, .f32⟩
  | 49 => ⟨S4000000x1, .f32⟩
  | 50 => ⟨S4000000, .f32⟩
  | 51 => ⟨S4000000x1, .f32⟩
  | 52 => ⟨S4000000, .f32⟩
  | 53 => ⟨S4000000, .f32⟩
  | 54 => ⟨S4000000x1, .f32⟩
  | 55 => ⟨S4000000, .f32⟩
  | 56 => ⟨S4000000x1, .f32⟩
  | 57 => ⟨S4000000, .f32⟩
  | 58 => ⟨S4000000, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S4000000, .f32⟩
  | 65 => ⟨S4000000x1, .f32⟩
  | 66 => ⟨S4000000, .f32⟩
  | 67 => ⟨S4000000x1, .f32⟩
  | 68 => ⟨S4000000, .f32⟩
  | 69 => ⟨S4000000, .f32⟩
  | 70 => ⟨S4000000x1, .f32⟩
  | 71 => ⟨S4000000, .f32⟩
  | 72 => ⟨S4000000x1, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000x1, .f32⟩
  | 82 => ⟨S4000000, .f32⟩
  | 83 => ⟨S_, .f32⟩
  | 84 => ⟨S4000000, .f32⟩
  | 85 => ⟨S4000000, .i1⟩
  | 86 => ⟨S4000000x1, .f32⟩
  | 87 => ⟨S4000000, .f32⟩
  | 88 => ⟨S_, .f32⟩
  | 89 => ⟨S4000000, .f32⟩
  | 90 => ⟨S4000000, .i1⟩
  | 91 => ⟨S4000000, .i1⟩
  | 92 => ⟨S4000000x1, .f32⟩
  | 93 => ⟨S4000000, .f32⟩
  | 94 => ⟨S_, .f32⟩
  | 95 => ⟨S4000000, .f32⟩
  | 96 => ⟨S4000000, .i1⟩
  | 97 => ⟨S4000000, .i1⟩
  | 98 => ⟨S4000000x1, .f32⟩
  | 99 => ⟨S4000000, .f32⟩
  | 100 => ⟨S_, .f32⟩
  | 101 => ⟨S4000000, .f32⟩
  | 102 => ⟨S4000000, .i1⟩
  | 103 => ⟨S4000000, .i1⟩
  | 104 => ⟨S4000000x1, .f32⟩
  | 105 => ⟨S4000000, .f32⟩
  | 106 => ⟨S_, .f32⟩
  | 107 => ⟨S4000000, .f32⟩
  | 108 => ⟨S4000000, .i1⟩
  | 109 => ⟨S4000000, .i1⟩
  | 110 => ⟨S4000000x1, .f32⟩
  | 111 => ⟨S4000000, .f32⟩
  | 112 => ⟨S_, .f32⟩
  | 113 => ⟨S4000000, .f32⟩
  | 114 => ⟨S4000000, .i1⟩
  | 115 => ⟨S4000000, .i1⟩
  | 116 => ⟨S_, .f32⟩
  | 117 => ⟨S4000000, .f32⟩
  | 118 => ⟨S4000000, .f32⟩
  | 119 => ⟨S4000000, .f32⟩
  | 120 => ⟨S_, .f32⟩
  | 121 => ⟨S4000000, .f32⟩
  | 122 => ⟨S4000000, .f32⟩
  | 123 => ⟨S_, .f32⟩
  | 124 => ⟨S_, .f32⟩
  | 125 => ⟨S4000000, .f32⟩
  | 126 => ⟨S4000000, .f32⟩
  | 127 => ⟨S4000000x1, .f32⟩
  | _ => ⟨S4000000x7, .f32⟩

abbrev hbmTy (i : Nat) : BufTy := match i / 128 with
  | 0 => hbmTy0_0 i
  | 1 => hbmTy0_1 i
  | 2 => hbmTy0_2 i
  | _ => ⟨S4000000x7, .f32⟩

abbrev bufTy : (tb : Table) → Fin (tcTables nBuf tb) → BufTy
  | .hbm, ⟨i, _⟩ => hbmTy i
  | _, _ => ⟨S4000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_6 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_8 : Ref sig .tc := ⟨.hbm, 75, rfl⟩
abbrev main_v64 : Ref sig .tc := ⟨.hbm, 76, rfl⟩
abbrev main_v65 : Ref sig .tc := ⟨.hbm, 77, rfl⟩
abbrev main_cst_9 : Ref sig .tc := ⟨.hbm, 78, rfl⟩
abbrev main_v66 : Ref sig .tc := ⟨.hbm, 79, rfl⟩
abbrev main_v67 : Ref sig .tc := ⟨.hbm, 80, rfl⟩
abbrev main_cst_10 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_11 : Ref sig .tc := ⟨.hbm, 86, rfl⟩
abbrev main_call0_v0 : Ref sig .tc := ⟨.hbm, 87, rfl⟩
abbrev main_call0_v1 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_14 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_15 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_16 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_17 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_18 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_19 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_20 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_cst_21 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_cst_22 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_23 : Ref sig .tc := ⟨.hbm, 176, rfl⟩
abbrev main_v148 : Ref sig .tc := ⟨.hbm, 177, rfl⟩
abbrev main_v149 : Ref sig .tc := ⟨.hbm, 178, rfl⟩
abbrev main_cst_24 : Ref sig .tc := ⟨.hbm, 179, rfl⟩
abbrev main_v150 : Ref sig .tc := ⟨.hbm, 180, rfl⟩
abbrev main_v151 : Ref sig .tc := ⟨.hbm, 181, rfl⟩
abbrev main_cst_25 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_26 : Ref sig .tc := ⟨.hbm, 187, rfl⟩
abbrev main_call1_v0 : Ref sig .tc := ⟨.hbm, 188, rfl⟩
abbrev main_call1_v1 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_cst_27 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_28 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_29 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_cst_30 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_cst_31 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_cst_32 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_cst_33 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_cst_34 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_cst_35 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_cst_36 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_cst_37 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_cst_38 : Ref sig .tc := ⟨.hbm, 277, rfl⟩
abbrev main_v232 : Ref sig .tc := ⟨.hbm, 278, rfl⟩
abbrev main_v233 : Ref sig .tc := ⟨.hbm, 279, rfl⟩
abbrev main_cst_39 : Ref sig .tc := ⟨.hbm, 280, rfl⟩
abbrev main_v234 : Ref sig .tc := ⟨.hbm, 281, rfl⟩
abbrev main_v235 : Ref sig .tc := ⟨.hbm, 282, rfl⟩
abbrev main_cst_40 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_cst_41 : Ref sig .tc := ⟨.hbm, 288, rfl⟩
abbrev main_call2_v0 : Ref sig .tc := ⟨.hbm, 289, rfl⟩
abbrev main_call2_v1 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_cst_42 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_cst_43 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_cst_44 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_cst_45 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_v294 : Ref sig .tc := ⟨.hbm, 349, rfl⟩
abbrev main_cst_46 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_cst_47 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_cst_48 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_cst_49 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_cst_50 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_cst_51 : Ref sig .tc := ⟨.hbm, 376, rfl⟩
abbrev main_v316 : Ref sig .tc := ⟨.hbm, 377, rfl⟩
abbrev main_v317 : Ref sig .tc := ⟨.hbm, 378, rfl⟩
abbrev main_cst_52 : Ref sig .tc := ⟨.hbm, 379, rfl⟩
abbrev main_call3_v0 : Ref sig .tc := ⟨.hbm, 380, rfl⟩
abbrev main_call3_v1 : Ref sig .tc := ⟨.hbm, 381, rfl⟩
abbrev main_v318 : Ref sig .tc := ⟨.hbm, 382, rfl⟩
abbrev main_v319 : Ref sig .tc := ⟨.hbm, 383, rfl⟩

abbrev nD : Nat := 1
abbrev τ : Topo := Topo.v7x

variable {F : FTy → Type} [FloatOps F]

class Facts₀ : Prop where
  slices_S4000000x7_S4000000x1_0_0 : S4000000x7.Slices ![0, 0] S4000000x1
  shapeCasts_S4000000x1_S4000000 : S4000000x1.ShapeCasts S4000000
  slices_S4000000x7_S4000000x1_0_3 : S4000000x7.Slices ![0, 3] S4000000x1
  bcast_S_S4000000 : S_.BroadcastsInDim S4000000 (![] : Fin 0 → Fin S4000000.rank)
  slices_S4000000x7_S4000000x1_0_2 : S4000000x7.Slices ![0, 2] S4000000x1
  slices_S4000000x7_S4000000x1_0_5 : S4000000x7.Slices ![0, 5] S4000000x1
  slices_S4000000x7_S4000000x1_0_1 : S4000000x7.Slices ![0, 1] S4000000x1
  slices_S4000000x7_S4000000x1_0_4 : S4000000x7.Slices ![0, 4] S4000000x1
  bcast_S4000000_S4000000x1_0 : S4000000.BroadcastsInDim S4000000x1 (![0] : Fin 1 → Fin S4000000x1.rank)

variable [Facts₀]

class Facts : Prop extends Facts₀ where

variable [Facts]
-- ==== Proof.Giou.lean ====
/-
  The row function both programs compute.

  A box is seven numbers; columns 0, 1, 2 are its centre and columns 3, 4, 5 its lengths along x, y, z
  (column 6 is never read). On one axis a box with centre `c` and length `d` spans the interval from
  `c - d/2` to `c + d/2`. In a coordinate plane two boxes `g` and `q` have an OVERLAP — a width times a
  height, each a least upper end minus a greatest lower end plus a tiny positive slack, counted only when both
  factors are positive, else zero — and a HULL, the area of the smallest rectangle around both (greatest upper
  end minus least lower end, plus the slack, on each axis). From an overlap `i`, a union `u` (the two
  boxes' own areas minus an overlap) and a hull `h` a plane contributes `i / u - (h - u) / h`. The row's value
  blends the x–z plane's contribution with twice the y–z plane's, divided by three, and is zero unless all six
  lengths are positive.

  Two historical quirks of the function are kept exactly as both programs have them: the overlap's width takes its
  least and its greatest of the SAME two ends (`g`'s lower end and `q`'s upper end), and the y–z plane's union
  subtracts the x–y plane's overlap.

  Everything is stated for any float instance `F`, the operations being the instance's own; the quotient is a
  parameter `dv`, because the vector unit and the host each name their division separately and the two are one
  function on the extended reals. The five constants are kept as their words: 1/2, 1e-16 (the slack), 0, 2, 3.
-/
import Idealize.ShloMosaic.PureOps.Ideal

noncomputable section

namespace Cert.Giou

open Idealize.ShloMosaic

variable {F : FTy → Type} [FloatOps F]

/-- One half. -/
abbrev half : F .f32 := FloatOps.ofBits .f32 0x3F000000#32
/-- The slack added to every width and height. -/
abbrev slack : F .f32 := FloatOps.ofBits .f32 0x24E69595#32
/-- Zero. -/
abbrev zero : F .f32 := FloatOps.ofBits .f32 0x00000000#32
/-- Two. -/
abbrev two : F .f32 := FloatOps.ofBits .f32 0x40000000#32
/-- Three. -/
abbrev three : F .f32 := FloatOps.ofBits .f32 0x40400000#32

/-- The lower end `c - d/2` of the interval with centre `c` and length `d`. -/
def lo (c d : F .f32) : F .f32 := FloatOps.subf c (FloatOps.mulf half d)
/-- Its upper end `c + d/2`. -/
def hi (c d : F .f32) : F .f32 := FloatOps.addf c (FloatOps.mulf half d)

/-- `x > 0`, as a one-bit word. -/
def pos (x : F .f32) : BitVec 1 := FloatOps.cmpf .ogt x zero

/-- `w · h` when both are positive, else zero. -/
def area (w h : F .f32) : F .f32 := Scalar.select (IntOp.andi (pos w) (pos h)) (FloatOps.mulf w h) zero

/-- `(a - b) + slack`. -/
def gap (a b : F .f32) : F .f32 := FloatOps.addf (FloatOps.subf a b) slack

/-- The overlap of two boxes in a plane with axes x (centres `cxg`, `cxq`, lengths `dxg`, `dxq`) and y: the width is
    taken between `g`'s lower x end and `q`'s upper x end (least minus greatest of that one pair), the height between the
    least upper and the greatest lower y ends. -/
def overlap (cxg dxg cyg dyg cxq dxq cyq dyq : F .f32) : F .f32 :=
  area (gap (FloatOps.minimumf (lo cxg dxg) (hi cxq dxq)) (FloatOps.maximumf (lo cxg dxg) (hi cxq dxq)))
    (gap (FloatOps.minimumf (hi cyg dyg) (hi cyq dyq)) (FloatOps.maximumf (lo cyg dyg) (lo cyq dyq)))

/-- The hull of two boxes in that plane: (greatest upper end - least lower end + slack) on x times the same on y. -/
def hull (cxg dxg cyg dyg cxq dxq cyq dyq : F .f32) : F .f32 :=
  FloatOps.mulf (gap (FloatOps.maximumf (hi cxg dxg) (hi cxq dxq)) (FloatOps.minimumf (lo cxg dxg) (lo cxq dxq)))
    (gap (FloatOps.maximumf (hi cyg dyg) (hi cyq dyq)) (FloatOps.minimumf (lo cyg dyg) (lo cyq dyq)))

/-- A plane's contribution `i / u - (h - u) / h` with the union `u = a·b + c·d - s`: `a·b` and `c·d` the two boxes'
    own areas in the plane, `s` the overlap subtracted, `i` the overlap in the numerator, `h` the hull. -/
def share (dv : F .f32 → F .f32 → F .f32) (i s a b c d h : F .f32) : F .f32 :=
  FloatOps.subf (dv i (FloatOps.subf (FloatOps.addf (FloatOps.mulf a b) (FloatOps.mulf c d)) s))
    (dv (FloatOps.subf h (FloatOps.subf (FloatOps.addf (FloatOps.mulf a b) (FloatOps.mulf c d)) s)) h)

/-- All six lengths positive. -/
def proper (g q : Fin 7 → F .f32) : BitVec 1 :=
  IntOp.andi (IntOp.andi (IntOp.andi (IntOp.andi (IntOp.andi (pos (g 3)) (pos (g 4))) (pos (g 5))) (pos (q 3))) (pos (q 4))) (pos (q 5))

/-- THE ROW'S VALUE: `(x–z share + 2 · y–z share) / 3` for proper boxes, zero otherwise; the x–z share over the x–z
    overlap and hull, the y–z share over the y–z overlap and hull with the x–y overlap subtracted in its union. -/
def giou (dv : F .f32 → F .f32 → F .f32) (g q : Fin 7 → F .f32) : F .f32 :=
  Scalar.select (proper g q)
    (dv (FloatOps.addf
          (share dv (overlap (g 0) (g 3) (g 2) (g 5) (q 0) (q 3) (q 2) (q 5)) (overlap (g 0) (g 3) (g 2) (g 5) (q 0) (q 3) (q 2) (q 5))
            (g 3) (g 5) (q 3) (q 5) (hull (g 0) (g 3) (g 2) (g 5) (q 0) (q 3) (q 2) (q 5)))
          (FloatOps.mulf two
            (share dv (overlap (g 1) (g 4) (g 2) (g 5) (q 1) (q 4) (q 2) (q 5)) (overlap (g 0) (g 3) (g 1) (g 4) (q 0) (q 3) (q 1) (q 4))
              (g 4) (g 5) (q 4) (q 5) (hull (g 1) (g 4) (g 2) (g 5) (q 1) (q 4) (q 2) (q 5)))))
      three)
    zero

end Cert.Giou

end
-- ==== Proof.KernelRow.lean ====
/-
  What the kernel's body stores, read at one lane.

  The body loads a 7 × 32000 block of each transposed box array (row `k` of a block is column `k` of 32000 consecutive
  boxes) and stores one 1 × 32000 row. Every operation between the loads and the store acts lane by lane; the only
  operations that move data are the slices taking row `k` of a block. So lane `y` of the stored row is the row function
  `Cert.Giou.giou` of the two blocks' columns at `y`, with the vector unit's quotient.
-/
import proofs.«121249_j56453050139230_2_alg».proof.Proof.Gen.KernelIdeal.Frame
import proofs.«121249_j56453050139230_2_alg».proof.Proof.Giou
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx Cert.Giou

variable {F : FTy → Type} [FloatOps F]

/-- The zero offsets, as the constant function. -/
theorem offsets_zero : (![0, 0] : Fin 2 → Nat) = fun _ => 0 := funext fun a => by fin_cases a <;> rfl

/-- Row `o` of a 7 × 32000 block, read at lane `y`, is the block at `(o, y)`. -/
theorem slice_row (o : Nat) (ho : o < 7) (x : FVec F S7x32000 .f32) (h : S7x32000.Slices ![o, 0] S1x32000) (y : Fin 32000) :
    extractStridedSlice S1x32000 ![o, 0] x h (ix2 (0 : Fin 1) y) = x (ix2 (⟨o, ho⟩ : Fin 7) y) :=
  extractStridedSlice_apply ![o, 0] x h (ix2 (0 : Fin 1) y) (ix2 (⟨o, ho⟩ : Fin 7) y) (fun a => match a with
    | ⟨0, _⟩ => by show o = o + 0; omega
    | ⟨1, _⟩ => by show y.val = 0 + y.val; omega)

/-- LANE `y` OF WHAT THE BODY STORES is the row function of the two loaded blocks' columns at `y`. -/
theorem stored_apply (x0 x1 : Vec F S7x32000 .f32) (y : Fin 32000) :
    out0_2 x0 x1 (ix2 (0 : Fin 1) y)
      = giou FloatOps.divf (fun k => x0 (ix2 k y)) (fun k => x1 (ix2 k y)) := by
  unfold out0_2
  rw [View.canon_unit_zero offsets_zero]
  simp only [View.ld_unit_zero (S := S7x32000) offsets_zero]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59]
  simp only [shapeCast_self, mulf, addf, subf, divf, minimumf, maximumf, cmpf, andi, select, broadcast,
    slice_row 0 (by omega), slice_row 1 (by omega), slice_row 2 (by omega), slice_row 3 (by omega),
    slice_row 4 (by omega), slice_row 5 (by omega)]
  rfl

end Cert.KernelIdeal.Row

end
-- ==== Proof.KernelValue.lean ====
/-
  The kernel's result array, as one function of the two argument arrays.

  Before the region the host transposes each [N, 7] argument array to [7, N]; the region's grid has 125 points, and at
  point `t` the body reads columns `32000·t … 32000·t + 31999` of both transposed arrays (all seven rows) and writes
  the same columns of a [1, N] array; after the region the host reshapes [1, N] to [N, 1]. Lane `y` of what point `t`
  stores is the row function of box `32000·t + y` of each argument array (`Row.stored_apply`, the transposes read back),
  so what each point writes back is its block of ONE array: `rows x0 x1`, whose entry `(0, r)` is the row function of row
  `r` of the two argument arrays. The 125 blocks tile the [1, N] array — entry `(0, r)` lies in the block of point
  `r / 32000` — so after the region the array IS `rows`; the reshape keeps row-major positions, so entry `(r, 0)` of the
  result is entry `(0, r)` of `rows`.
-/
import proofs.«121249_j56453050139230_2_alg».proof.Proof.Gen.KernelIdeal.Frame
import proofs.«121249_j56453050139230_2_alg».proof.Proof.KernelRow
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Giou
open Idealize.ShloMosaic.Pipeline (Dat)

variable {F : FTy → Type} [FloatOps F]

/-! ## The specification -/

/-- The row function of row `r` of two [N, 7] arrays, with the vector unit's quotient. -/
def rowOf (x0 x1 : (⟨S4000000x7, .f32⟩ : BufTy).Contents (Elt F)) (r : Fin 4000000) : Elt F .f32 :=
  giou FloatOps.divf (fun k => x0 (ix2 r k)) (fun k => x1 (ix2 r k))

/-- The [1, N] array of all rows' values. -/
def rows (x0 x1 : (⟨S4000000x7, .f32⟩ : BufTy).Contents (Elt F)) : S1x4000000.Idx → Elt F .f32 :=
  fun i => rowOf x0 x1 ⟨(i 1).val, idx2_lt1 i⟩

/-! ## A transposed array read at an index -/

/-- If `A` is the transpose of `x`, then `A` at an index with coordinates `(k, r)` is `x` at `(r, k)`. -/
theorem transposed_apply (x : (⟨S4000000x7, .f32⟩ : BufTy).Contents (Elt F)) (A : S7x4000000.Idx → Elt F .f32)
    (hA : A = transpose S7x4000000 [1, 0] x transposes_S4000000x7_S7x4000000_1_0)
    (i : S7x4000000.Idx) (r : Fin 4000000) (k : Fin 7) (h0 : (i 0).val = k.val) (h1 : (i 1).val = r.val) :
    A i = x (ix2 r k) := by
  subst hA
  exact transpose_apply [1, 0] x transposes_S4000000x7_S7x4000000_1_0 i (ix2 r k) (fun b => match b with
    | ⟨0, _⟩ => by show k.val = (i 0).val; omega
    | ⟨1, _⟩ => by show r.val = (i 1).val; omega)

variable (m : (ℓ : Loc nD τ sig) → Buf (Elt F) ℓ) (ρ : Dev nD → PrngReg)

/-- The region finds, in its first window's array, the transpose of the first argument array. -/
theorem entry0 (c : Dev nD) : (V m c main_v0 : S7x4000000.Idx → Elt F .f32)
    = transpose S7x4000000 [1, 0] (m ((c : Thread nD τ).loc main_arg0)) transposes_S4000000x7_S7x4000000_1_0 := by
  show StableHlo.after hostOps0 (fun b => m (c, b)) (Proc.devRef .tc main_v0) = _
  after_results

/-- And in its second window's array the transpose of the second. -/
theorem entry1 (c : Dev nD) : (V m c main_v1 : S7x4000000.Idx → Elt F .f32)
    = transpose S7x4000000 [1, 0] (m ((c : Thread nD τ).loc main_arg1)) transposes_S4000000x7_S7x4000000_1_0 := by
  show StableHlo.after hostOps0 (fun b => m (c, b)) (Proc.devRef .tc main_v1) = _
  after_results

/-! ## What a point writes back -/

/-- The printed index maps, decided over the 125 points: the inputs' blocks sit on row-block 0 and move along the
    columns with the output's, whose column-block at point `t` is `t`. -/
theorem index_facts : ∀ t : Fin cfg0.N, win0_0.index t (0 : Fin 2) = 0
    ∧ win0_0.index t (1 : Fin 2) = t.val
    ∧ win0_1.index t (0 : Fin 2) = 0
    ∧ win0_1.index t (1 : Fin 2) = t.val
    ∧ win0_2.index t (0 : Fin 2) = 0
    ∧ win0_2.index t (1 : Fin 2) = t.val :=
  (by decide +kernel : ∀ t : Fin grid0.N, _)

/-- Entry `(k, y)` of the first input block at point `t` is the first argument array at row `32000·t + y`, column `k`. -/
theorem block0_apply (c : Dev nD) (t : Fin cfg0.N) (k : Fin 7) (y : Fin 32000) (r : Fin 4000000)
    (hr : r.val = t.val * 32000 + y.val) :
    iblk m c 0 t (ix2 k y) = m ((c : Thread nD τ).loc main_arg0) (ix2 r k) := by
  obtain ⟨e0, e1, -, -, -, -⟩ := index_facts t
  show V m c main_v0 (((cfg0.win 0).blk t).view.emb (ix2 k y)) = _
  refine transposed_apply _ _ (entry0 m c) _ r k ?_ ?_
  · show win0_0.index t (0 : Fin 2) * 7 + 1 * k.val = k.val; omega
  · show win0_0.index t (1 : Fin 2) * 32000 + 1 * y.val = r.val; omega

/-- The same for the second input block and the second argument array. -/
theorem block1_apply (c : Dev nD) (t : Fin cfg0.N) (k : Fin 7) (y : Fin 32000) (r : Fin 4000000)
    (hr : r.val = t.val * 32000 + y.val) :
    iblk m c 1 t (ix2 k y) = m ((c : Thread nD τ).loc main_arg1) (ix2 r k) := by
  obtain ⟨-, -, e0, e1, -, -⟩ := index_facts t
  show V m c main_v1 (((cfg0.win 1).blk t).view.emb (ix2 k y)) = _
  refine transposed_apply _ _ (entry1 m c) _ r k ?_ ?_
  · show win0_1.index t (0 : Fin 2) * 7 + 1 * k.val = k.val; omega
  · show win0_1.index t (1 : Fin 2) * 32000 + 1 * y.val = r.val; omega

/-- WHAT POINT `t` WRITES BACK is its block of `rows` of the argument arrays. -/
theorem flushed_eq (c : Dev nD) (t : Fin cfg0.N) :
    (dats m 0 c).flushed 2 t
      = ((cfg0.win 2).blk t).view.read (Elt F) (rows (m ((c : Thread nD τ).loc main_arg0)) (m ((c : Thread nD τ).loc main_arg1))) := by
  show (cfg0.win 2).cut (grid0.coords t) ((dats m 0 c).after 2 t) = _
  rw [after0_2]
  obtain ⟨-, -, -, -, e0, e1⟩ := index_facts t
  funext j
  have h0 : (j 0).val < 1 := (j 0).isLt
  have h1 : (j 1).val < 32000 := (j 1).isLt
  have ht : t.val < 125 := t.isLt
  have hj : j = ix2 (0 : Fin 1) (⟨(j 1).val, h1⟩ : Fin 32000) := by
    funext a
    match a with
    | ⟨0, _⟩ => exact Fin.ext (by show (j 0).val = 0; omega)
    | ⟨1, _⟩ => rfl
  show out0_2 (iblk m c 0 t) (iblk m c 1 t) j
    = rows (m ((c : Thread nD τ).loc main_arg0)) (m ((c : Thread nD τ).loc main_arg1)) (((cfg0.win 2).blk t).view.emb j)
  rw [hj, Row.stored_apply]
  have hr : (((cfg0.win 2).blk t).view.emb (ix2 (0 : Fin 1) (⟨(j 1).val, h1⟩ : Fin 32000)) 1).val = t.val * 32000 + (j 1).val := by
    show win0_2.index t (1 : Fin 2) * 32000 + 1 * (j 1).val = _; omega
  unfold rows rowOf
  refine congrArg₂ (giou FloatOps.divf) (funext fun k => ?_) (funext fun k => ?_)
  · exact block0_apply m c t k _ _ hr
  · exact block1_apply m c t k _ _ hr

/-! ## The array after the region -/

/-- An index of the [1, N] array is in point `t`'s block iff each coordinate is in the block's range on its axis. -/
theorem mem_block (t : Fin cfg0.N) (i : S1x4000000.Idx) :
    i ∈ ((cfg0.win 2).blk t).view.set ↔ ∀ a : Fin 2, win0_2.index t a * S1x32000.size a ≤ (i a).val ∧ (i a).val < win0_2.index t a * S1x32000.size a + S1x32000.size a := by
  show i ∈ ((View.whole main_v2).slice (win0_2.rect t)).set ↔ _
  rw [View.set_slice_whole, Rect.mem_set_unit]
  exact Iff.rfl

/-- Every index is in the block of the point its column falls to. -/
theorem covered (i : S1x4000000.Idx) : ∃ t : Fin cfg0.N, (cfg0.win 2).flush t = true ∧ i ∈ ((cfg0.win 2).blk t).view.set := by
  have hi0 : (i 0).val < 1 := (i 0).isLt
  have hi1 : (i 1).val < 4000000 := (i 1).isLt
  let t : Fin cfg0.N := ⟨(i 1).val / 32000, by show (i 1).val / 32000 < 125; omega⟩
  obtain ⟨-, -, -, -, e0, e1⟩ := index_facts t
  have e1' : win0_2.index t (1 : Fin 2) = (i 1).val / 32000 := e1
  refine ⟨t, flush0_2 t, ?_⟩
  rw [mem_block]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 32000 ≤ (i 1).val ∧ (i 1).val < win0_2.index t (1 : Fin 2) * 32000 + 32000; omega

/-- THE ARRAY after the region is `rows` of the argument arrays. -/
theorem region_result (c : Dev nD) : (dats m 0 c).arrAt 2 cfg0.N
    = rows (m ((c : Thread nD τ).loc main_arg0)) (m ((c : Thread nD τ).loc main_arg1)) :=
  (dats m 0 c).arrAt_eq_of_cover 2 _ (fun t _ => flushed_eq m c t) covered

/-! ## The host's reshape after the region, and the run -/

/-- The program's result: `rows`, reshaped [1, N] → [N, 1]. -/
def result (x0 x1 : (⟨S4000000x7, .f32⟩ : BufTy).Contents (Elt F)) : S4000000x1.Idx → Elt F .f32 :=
  shapeCast S4000000x1 (rows x0 x1) shapeCasts_S1x4000000_S4000000x1

/-- Entry `(r, 0)` of the result is the row function of row `r`. -/
theorem result_apply (x0 x1 : (⟨S4000000x7, .f32⟩ : BufTy).Contents (Elt F)) (r : Fin 4000000) :
    result x0 x1 (ix2 r (0 : Fin 1)) = rowOf x0 x1 r := by
  unfold result
  rw [shapeCast_apply (rows x0 x1) shapeCasts_S1x4000000_S4000000x1 (ix2 r (0 : Fin 1)) (ix2 (0 : Fin 1) r)
    (by rewrite [Shape.rowMajor_val_two, Shape.rowMajor_val_two]; show 0 * 4000000 + r.val = r.val * 1 + 0; omega)]
  rfl

/-- What the lines after the region leave in the result buffer. -/
theorem tail_result (c : Dev nD) :
    Pipeline.afterTail₀ cfgs (dats m) 0 (V0 m) [hostOps1] c main_v3
      = result (m ((c : Thread nD τ).loc main_arg0)) (m ((c : Thread nD τ).loc main_arg1)) := by
  unfold Pipeline.afterTail₀
  show StableHlo.after hostOps1 _ (Proc.devRef .tc main_v3) = _
  after_results
  exact congrArg (fun A => shapeCast S4000000x1 A shapeCasts_S1x4000000_S4000000x1)
    ((Pipeline.withArrays_arr spec0 launch0.win.arr_inj c _ _ 2).trans (region_result m c))

/-- THE KERNEL'S RUN: every weakly fair execution terminates with the result buffer at `result` of the argument arrays'
    launch contents, and the argument arrays unchanged. -/
theorem run : θ_run defs (onTc (τ := τ) (main (F := F))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.RefLive.lean ====
/-
  The reference's straight line of 382 host operations is read in seven consecutive windows, the ones its printed
  `main` is cut into. Every buffer is written once, so between two windows all that matters of the buffers' contents is:
  the two argument arrays are still what was launched, and each value a LATER window reads already holds its stage —
  the function of the argument arrays that its operation, composed with those before it, computes. `LiveK` says
  exactly that of the contents `W` before window `K`; `Live7` is the statement at the end: the result buffer holds the
  last stage.
-/
import proofs.«121249_j56453050139230_2_alg».proof.Proof.RefStages

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Before window 0: the argument arrays are as launched. -/
def Live0 (x0 x1 : (⟨S4000000x7, .f32⟩ : BufTy).Contents (Elt F)) (W : Valuation τ sig (Elt F)) : Prop :=
  W (Proc.devRef .tc main_arg0) = x0
  ∧ W (Proc.devRef .tc main_arg1) = x1

/-- Before window 1: the argument arrays are as launched, and each of `main_v6`, `main_v13`, `main_v20`, `main_v27`, `main_v34`, `main_v41`, `main_v48`, `main_v50`, `main_v52` holds its stage of them. -/
def Live1 (x0 x1 : (⟨S4000000x7, .f32⟩ : BufTy).Contents (Elt F)) (W : Valuation τ sig (Elt F)) : Prop :=
  W (Proc.devRef .tc main_arg0) = x0
  ∧ W (Proc.devRef .tc main_arg1) = x1
  ∧ W (Proc.devRef .tc main_v6) = val_main_v6 (F := F) x0
  ∧ W (Proc.devRef .tc main_v13) = val_main_v13 (F := F) x0
  ∧ W (Proc.devRef .tc main_v20) = val_main_v20 (F := F) x0
  ∧ W (Proc.devRef .tc main_v27) = val_main_v27 (F := F) x0
  ∧ W (Proc.devRef .tc main_v34) = val_main_v34 (F := F) x1
  ∧ W (Proc.devRef .tc main_v41) = val_main_v41 (F := F) x1
  ∧ W (Proc.devRef .tc main_v48) = val_main_v48 (F := F) x1
  ∧ W (Proc.devRef .tc main_v50) = val_main_v50 (F := F) x1
  ∧ W (Proc.devRef .tc main_v52) = val_main_v52 (F := F) x1

/-- Before window 2: the argument arrays are as launched, and each of `main_v72`, `main_v83`, `main_v90`, `main_v99`, `main_v101`, `main_cst_16` holds its stage of them. -/
def Live2 (x0 x1 : (⟨S4000000x7, .f32⟩ : BufTy).Contents (Elt F)) (W : Valuation τ sig (Elt F)) : Prop :=
  W (Proc.devRef .tc main_arg0) = x0
  ∧ W (Proc.devRef .tc main_arg1) = x1
  ∧ W (Proc.devRef .tc main_v72) = val_main_v72 (F := F) x0 x1
  ∧ W (Proc.devRef .tc main_v83) = val_main_v83 (F := F) x0 x1
  ∧ W (Proc.devRef .tc main_v90) = val_main_v90 (F := F) x0
  ∧ W (Proc.devRef .tc main_v99) = val_main_v99 (F := F) x0
  ∧ W (Proc.devRef .tc main_v101) = val_main_v101 (F := F) x0
  ∧ W (Proc.devRef .tc main_cst_16) = val_main_cst_16 (F := F)

/-- Before window 3: the argument arrays are as launched, and each of `main_v72`, `main_v83`, `main_v144`, `main_v149`, `main_v151`, `main_v152` holds its stage of them. -/
def Live3 (x0 x1 : (⟨S4000000x7, .f32⟩ : BufTy).Contents (Elt F)) (W : Valuation τ sig (Elt F)) : Prop :=
  W (Proc.devRef .tc main_arg0) = x0
  ∧ W (Proc.devRef .tc main_arg1) = x1
  ∧ W (Proc.devRef .tc main_v72) = val_main_v72 (F := F) x0 x1
  ∧ W (Proc.devRef .tc main_v83) = val_main_v83 (F := F) x0 x1
  ∧ W (Proc.devRef .tc main_v144) = val_main_v144 (F := F) x0 x1
  ∧ W (Proc.devRef .tc main_v149) = val_main_v149 (F := F) x0 x1
  ∧ W (Proc.devRef .tc main_v151) = val_main_v151 (F := F) x0 x1
  ∧ W (Proc.devRef .tc main_v152) = val_main_v152 (F := F)

/-- Before window 4: the argument arrays are as launched, and each of `main_v72`, `main_v83`, `main_v156`, `main_v174`, `main_v181`, `main_v188`, `main_v195`, `main_v202`, `main_v204` holds its stage of them. -/
def Live4 (x0 x1 : (⟨S4000000x7, .f32⟩ : BufTy).Contents (Elt F)) (W : Valuation τ sig (Elt F)) : Prop :=
  W (Proc.devRef .tc main_arg0) = x0
  ∧ W (Proc.devRef .tc main_arg1) = x1
  ∧ W (Proc.devRef .tc main_v72) = val_main_v72 (F := F) x0 x1
  ∧ W (Proc.devRef .tc main_v83) = val_main_v83 (F := F) x0 x1
  ∧ W (Proc.devRef .tc main_v156) = val_main_v156 (F := F) x0 x1
  ∧ W (Proc.devRef .tc main_v174) = val_main_v174 (F := F) x0
  ∧ W (Proc.devRef .tc main_v181) = val_main_v181 (F := F) x0
  ∧ W (Proc.devRef .tc main_v188) = val_main_v188 (F := F) x0
  ∧ W (Proc.devRef .tc main_v195) = val_main_v195 (F := F) x0
  ∧ W (Proc.devRef .tc main_v202) = val_main_v202 (F := F) x1
  ∧ W (Proc.devRef .tc main_v204) = val_main_v204 (F := F) x1

/-- Before window 5: the argument arrays are as launched, and each of `main_v72`, `main_v83`, `main_v156`, `main_v240`, `main_v251`, `main_v253`, `main_v254` holds its stage of them. -/
def Live5 (x0 x1 : (⟨S4000000x7, .f32⟩ : BufTy).Contents (Elt F)) (W : Valuation τ sig (Elt F)) : Prop :=
  W (Proc.devRef .tc main_arg0) = x0
  ∧ W (Proc.devRef .tc main_arg1) = x1
  ∧ W (Proc.devRef .tc main_v72) = val_main_v72 (F := F) x0 x1
  ∧ W (Proc.devRef .tc main_v83) = val_main_v83 (F := F) x0 x1
  ∧ W (Proc.devRef .tc main_v156) = val_main_v156 (F := F) x0 x1
  ∧ W (Proc.devRef .tc main_v240) = val_main_v240 (F := F) x0 x1
  ∧ W (Proc.devRef .tc main_v251) = val_main_v251 (F := F) x0 x1
  ∧ W (Proc.devRef .tc main_v253) = val_main_v253 (F := F) x0
  ∧ W (Proc.devRef .tc main_v254) = val_main_v254 (F := F) x0

/-- Before window 6: the argument arrays are as launched, and each of `main_v267`, `main_v283`, `main_v307`, `main_v309` holds its stage of them. -/
def Live6 (x0 x1 : (⟨S4000000x7, .f32⟩ : BufTy).Contents (Elt F)) (W : Valuation τ sig (Elt F)) : Prop :=
  W (Proc.devRef .tc main_arg0) = x0
  ∧ W (Proc.devRef .tc main_arg1) = x1
  ∧ W (Proc.devRef .tc main_v267) = val_main_v267 (F := F) x0 x1
  ∧ W (Proc.devRef .tc main_v283) = val_main_v283 (F := F) x0 x1
  ∧ W (Proc.devRef .tc main_v307) = val_main_v307 (F := F) x0 x1
  ∧ W (Proc.devRef .tc main_v309) = val_main_v309 (F := F) x1

/-- Before window 7 (that is, at the end): the argument arrays are as launched, and each of `main_v319` holds its stage of them. -/
def Live7 (x0 x1 : (⟨S4000000x7, .f32⟩ : BufTy).Contents (Elt F)) (W : Valuation τ sig (Elt F)) : Prop :=
  W (Proc.devRef .tc main_arg0) = x0
  ∧ W (Proc.devRef .tc main_arg1) = x1
  ∧ W (Proc.devRef .tc main_v319) = val_main_v319 (F := F) x0 x1

end Cert.ReferenceIdeal.RefRun

end
-- ==== Proof.RefWin0.lean ====
/-
  Window 0 of the reference's straight line: the 60 host operations that write `main_v0` … `main_v52`, as a list;
  the printed `main_part0` is that list run in order; and, if before it the argument arrays are as launched and the
  values it reads from earlier windows hold their stages (`Live0`), then after it the same holds of what later windows
  read (`Live1`): inside the window each operation's result is its function of its operands' contents, so each value
  is, by definition of the stages, its stage.
-/
import proofs.«121249_j56453050139230_2_alg».proof.Proof.RefLive

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- The window's operations, in order (a called function's operations stand in its call's place). -/
abbrev ops0 : List (HloOp τ sig (Elt F)) :=
  [ unary main_arg0 main_v0 ((extractStridedSlice S4000000x1 ![0, 0] · slices_S4000000x7_S4000000x1_0_0) : (⟨S4000000x7, .f32⟩ : BufTy).Contents (Elt F) → (⟨S4000000x1, .f32⟩ : BufTy).Contents (Elt F)),
    reshape main_v0 main_v1 rfl shapeCasts_S4000000x1_S4000000,
    unary main_arg0 main_v2 ((extractStridedSlice S4000000x1 ![0, 3] · slices_S4000000x7_S4000000x1_0_3) : (⟨S4000000x7, .f32⟩ : BufTy).Contents (Elt F) → (⟨S4000000x1, .f32⟩ : BufTy).Contents (Elt F)),
    reshape main_v2 main_v3 rfl shapeCasts_S4000000x1_S4000000,
    nullary main_cst (constant S_ .f32 0x3F000000#32),
    unary main_cst main_v4 (broadcastInDim S4000000 ![] bcast_S_S4000000 : (⟨S_, .f32⟩ : BufTy).Contents (Elt F) → (⟨S4000000, .f32⟩ : BufTy).Contents (Elt F)),
    binary main_v4 main_v3 main_v5 (mulf : (⟨S4000000, .f32⟩ : BufTy).Contents (Elt F) → (⟨S4000000, .f32⟩ : BufTy).Contents (Elt F) → (⟨S4000000, .f32⟩ : BufTy).Contents (Elt F)),
    binary main_v1 main_v5 main_v6 (subf : (⟨S4000000, .f32⟩ : BufTy).Contents (Elt F) → (⟨S4000000, .f32⟩ : BufTy).Contents (Elt F) → (⟨S4000000, .f32⟩ : BufTy).Contents (Elt F)),
    unary main_arg0 main_v7 ((extractStridedSlice S4000000x1 ![0, 0] · slices_S4000000x7_S4000000x1_0_0) : (⟨S4000000x7, .f32⟩ : BufTy).Contents (Elt F) → (⟨S4000000x1, .f32⟩ : BufTy).Contents (Elt F)),
    reshape main_v7 main_v8 rfl shapeCasts_S4000000x1_S4000000,
    unary main_arg0 main_v9 ((extractStridedSlice S4000000x1 ![0, 3] · slices_S4000000x7_S4000000x1_0_3) : (⟨S4000000x7, .f32⟩ : BufTy).Contents (Elt F) → (⟨S4000000x1, .f32⟩ : BufTy).Contents (Elt F)),
    reshape main_v9 main_v10 rfl shapeCasts_S4000000x1_S4000000,
    nullary main_cst_0 (constant S_ .f32 0x3F000000#32),
    unary main_cst_0 main_v11 (broadcastInDim S4000000 ![] bcast_S_S4000000 : (⟨S_, .f32⟩ : BufTy).Contents (Elt F) → (⟨S4000000, .f32⟩ : BufTy).Contents (Elt F)),
    binary main_v11 main_v10 main_v12 (mulf : (⟨S4000000, .f32⟩ : BufTy).Contents (Elt F) → (⟨S4000000, .f32⟩ : BufTy).Contents (Elt F) → (⟨S4000000, .f32⟩ : BufTy).Contents (Elt F)),
    binary main_v8 main_v12 main_v13 (addf : (⟨S4000000, .f32⟩ : BufTy).Contents (Elt F) → (⟨S4000000, .f32⟩ : BufTy).Contents (Elt F) → (⟨S4000000, .f32⟩ : BufTy).Contents (Elt F)),
    unary main_arg0 main_v14 ((extractStridedSlice S4000000x1 ![0, 2] · slices_S4000000x7_S4000000x1_0_2) : (⟨S4000000x7, .f32⟩ : BufTy).Contents (Elt F) → (⟨S4000000x1, .f32⟩ : BufTy).Contents (Elt F)),
    reshape main_v14 main_v15 rfl shapeCasts_S4000000x1_S4000000,
    unary main_arg0 main_v16 ((extractStridedSlice S4000000x1 ![0, 5] · slices_S4000000x7_S4000000x1_0_5) : (⟨S4000000x7, .f32⟩ : BufTy).Contents (Elt F) → (⟨S4000000x1, .f32⟩ : BufTy).Contents (Elt F)),
    reshape main_v16 main_v17 rfl shapeCasts_S4000000x1_S4000000,
    nullary main_cst_1 (constant S_ .f32 0x3F000000#32),
    unary main_cst_1 main_v18 (broadcastInDim S4000000 ![] bcast_S_S4000000 : (⟨S_, .f32⟩ : BufTy).Contents (Elt F) → (⟨S4000000, .f32⟩ : BufTy).Contents (Elt F)),
    binary main_v18 main_v17 main_v19 (mulf : (⟨S4000000, .f32⟩ : BufTy).Contents (Elt F) → (⟨S4000000, .f32⟩ : BufTy).Contents (Elt F) → (⟨S4000000, .f32⟩ : BufTy).Contents (Elt F)),
    binary main_v15 main_v19 main_v20 (subf : (⟨S4000000, .f32⟩ : BufTy).Contents (Elt F) → (⟨S4000000, .f32⟩ : BufTy).Contents (Elt F) → (⟨S4000000, .f32⟩ : BufTy).Contents (Elt F)),
    unary main_arg0 main_v21 ((extractStridedSlice S4000000x1 ![0, 2] · slices_S4000000x7_S4000000x1_0_2) : (⟨S4000000x7, .f32⟩ : BufTy).Contents (Elt F) → (⟨S4000000x1, .f32⟩ : BufTy).Contents (Elt F)),
    reshape main_v21 main_v22 rfl shapeCasts_S4000000x1_S4000000,
    unary main_arg0 main_v23 ((extractStridedSlice S4000000x1 ![0, 5] · slices_S4000000x7_S4000000x1_0_5) : (⟨S4000000x7, .f32⟩ : BufTy).Contents (Elt F) → (⟨S4000000x1, .f32⟩ : BufTy).Contents (Elt F)),
    reshape main_v23 main_v24 rfl shapeCasts_S4000000x1_S4000000,
    nullary main_cst_2 (constant S_ .f32 0x3F000000#32),
    unary main_cst_2 main_v25 (broadcastInDim S4000000 ![] bcast_S_S4000000 : (⟨S_, .f32⟩ : BufTy).Contents (Elt F) → (⟨S4000000, .f32⟩ : BufTy).Contents (Elt F)),
    binary main_v25 main_v24 main_v26 (mulf : (⟨S4000000, .f32⟩ : BufTy).Contents (Elt F) → (⟨S4000000, .f32⟩ : BufTy).Contents (Elt F) → (⟨S4000000, .f32⟩ : BufTy).Contents (Elt F)),
    binary main_v22 main_v26 main_v27 (addf : (⟨S4000000, .f32⟩ : BufTy).Contents (Elt F) → (⟨S4000000, .f32⟩ : BufTy).Contents (Elt F) → (⟨S4000000, .f32⟩ : BufTy).Contents (Elt F)),
    unary main_arg1 main_v28 ((extractStridedSlice S4000000x1 ![0, 0] · slices_S4000000x7_S4000000x1_0_0) : (⟨S4000000x7, .f32⟩ : BufTy).Contents (Elt F) → (⟨S4000000x1, .f32⟩ : BufTy).Contents (Elt F)),
    reshape main_v28 main_v29 rfl shapeCasts_S4000000x1_S4000000,
    unary main_arg1 main_v30 ((extractStridedSlice S4000000x1 ![0, 3] · slices_S4000000x7_S4000000x1_0_3) : (⟨S4000000x7, .f32⟩ : BufTy).Contents (Elt F) → (⟨S4000000x1, .f32⟩ : BufTy).Contents (Elt F)),
    reshape main_v30 main_v31 rfl shapeCasts_S4000000x1_S4000000,
    nullary main_cst_3 (constant S_ .f32 0x3F000000#32),
    unary main_cst_3 main_v32 (broadcastInDim S4000000 ![] bcast_S_S4000000 : (⟨S_, .f32⟩ : BufTy).Contents (Elt F) → (⟨S4000000, .f32⟩ : BufTy).Contents (Elt F)),
    binary main_v32 main_v31 main_v33 (mulf : (⟨S4000000, .f32⟩ : BufTy).Contents (Elt F) → (⟨S4000000, .f32⟩ : BufTy).Contents (Elt F) → (⟨S4000000, .f32⟩ : BufTy).Contents (Elt F)),
    binary main_v29 main_v33 main_v34 (subf : (⟨S4000000, .f32⟩ : BufTy).Contents (Elt F) → (⟨S4000000, .f32⟩ : BufTy).Contents (Elt F) → (⟨S4000000, .f32⟩ : BufTy).Contents (Elt F)),
    unary main_arg1 main_v35 ((extractStridedSlice S4000000x1 ![0, 0] · slices_S4000000x7_S4000000x1_0_0) : (⟨S4000000x7, .f32⟩ : BufTy).Contents (Elt F) → (⟨S4000000x1, .f32⟩ : BufTy).Contents (Elt F)),
    reshape main_v35 main_v36 rfl shapeCasts_S4000000x1_S4000000,
    unary main_arg1 main_v37 ((extractStridedSlice S4000000x1 ![0, 3] · slices_S4000000x7_S4000000x1_0_3) : (⟨S4000000x7, .f32⟩ : BufTy).Contents (Elt F) → (⟨S4000000x1, .f32⟩ : BufTy).Contents (Elt F)),
    reshape main_v37 main_v38 rfl shapeCasts_S4000000x1_S4000000,
    nullary main_cst_4 (constant S_ .f32 0x3F000000#32),
    unary main_cst_4 main_v39 (broadcastInDim S4000000 ![] bcast_S_S4000000 : (⟨S_, .f32⟩ : BufTy).Contents (Elt F) → (⟨S4000000, .f32⟩ : BufTy).Contents (Elt F)),
    binary main_v39 main_v38 main_v40 (mulf : (⟨S4000000, .f32⟩ : BufTy).Contents (Elt F) → (⟨S4000000, .f32⟩ : BufTy).Contents (Elt F) → (⟨S4000000, .f32⟩ : BufTy).Contents (Elt F)),
    binary main_v36 main_v40 main_v41 (addf : (⟨S4000000, .f32⟩ : BufTy).Contents (Elt F) → (⟨S4000000, .f32⟩ : BufTy).Contents (Elt F) → (⟨S4000000, .f32⟩ : BufTy).Contents (Elt F)),
    unary main_arg1 main_v42 ((extractStridedSlice S4000000x1 ![0, 2] · slices_S4000000x7_S4000000x1_0_2) : (⟨S4000000x7, .f32⟩ : BufTy).Contents (Elt F) → (⟨S4000000x1, .f32⟩ : BufTy).Contents (Elt F)),
    reshape main_v42 main_v43 rfl shapeCasts_S4000000x1_S4000000,
    unary main_arg1 main_v44 ((extractStridedSlice S4000000x1 ![0, 5] · slices_S4000000x7_S4000000x1_0_5) : (⟨S4000000x7, .f32⟩ : BufTy).Contents (Elt F) → (⟨S4000000x1, .f32⟩ : BufTy).Contents (Elt F)),
    reshape main_v44 main_v45 rfl shapeCasts_S4000000x1_S4000000,
    nullary main_cst_5 (constant S_ .f32 0x3F000000#32),
    unary main_cst_5 main_v46 (broadcastInDim S4000000 ![] bcast_S_S4000000 : (⟨S_, .f32⟩ : BufTy).Contents (Elt F) → (⟨S4000000, .f32⟩ : BufTy).Contents (Elt F)),
    binary main_v46 main_v45 main_v47 (mulf : (⟨S4000000, .f32⟩ : BufTy).Contents (Elt F) → (⟨S4000000, .f32⟩ : BufTy).Contents (Elt F) → (⟨S4000000, .f32⟩ : BufTy).Contents (Elt F)),
    binary main_v43 main_v47 main_v48 (subf : (⟨S4000000, .f32⟩ : BufTy).Contents (Elt F) → (⟨S4000000, .f32⟩ : BufTy).Contents (Elt F) → (⟨S4000000, .f32⟩ : BufTy).Contents (Elt F)),
    unary main_arg1 main_v49 ((extractStridedSlice S4000000x1 ![0, 2] · slices_S4000000x7_S4000000x1_0_2) : (⟨S4000000x7, .f32⟩ : BufTy).Contents (Elt F) → (⟨S4000000x1, .f32⟩ : BufTy).Contents (Elt F)),
    reshape main_v49 main_v50 rfl shapeCasts_S4000000x1_S4000000,
    unary main_arg1 main_v51 ((extractStridedSlice S4000000x1 ![0, 5] · slices_S4000000x7_S4000000x1_0_5) : (⟨S4000000x7, .f32⟩ : BufTy).Contents (Elt F) → (⟨S4000000x1, .f32⟩ : BufTy).Contents (Elt F)),
    reshape main_v51 main_v52 rfl shapeCasts_S4000000x1_S4000000 ]

set_option maxRecDepth 8192 in
set_option maxHeartbeats 4000000 in
/-- The printed window is its list run in order. -/
theorem part0_eq (c : Dev nD) : main_part0 (F := F) c = seq ops0 := rfl

set_option maxRecDepth 8192 in
/-- Every operation's buffers are TensorCore buffers. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub ..⟩

/-- Every operation determines what it writes. -/
theorem ops0_fresh : ∀ op ∈ (ops0 : List (HloOp τ sig (Elt F))), op.fresh = ∅ := by
  intro _ h; (repeat (cases h with | head => rfl | tail _ h => ?_)); exact nomatch h

set_option maxRecDepth 8192 in
set_option maxHeartbeats 4000000 in
/-- What later windows read, after this window, holds its stage. -/
theorem step0 (x0 x1 : (⟨S4000000x7, .f32⟩ : BufTy).Contents (Elt F)) (W : Valuation τ sig (Elt F)) (h : Live0 x0 x1 W) :
    Live1 x0 x1 (after ops0 W) := by
  obtain ⟨h_arg0, h_arg1⟩ := h
  refine ⟨?_, ?_, ?_, ?_, ?_, ?_, ?_, ?_, ?_, ?_, ?_⟩
  all_goals (after_results_simp; (try simp only [h_arg0, h_arg1]); try rfl)

end Cert.ReferenceIdeal.RefRun

end
-- ==== Proof.RefWin1.lean ====
/-
  Window 1 of the reference's straight line: the 62 host operations that write `main_cst_6` … `main_cst_16`, as a list;
  the printed `main_part1` is that list run in order; and, if before it the argument arrays are as launched and the
  values it reads from earlier windows hold their stages (`Live1`), then after it the same holds of what later windows
  read (`Live2`): inside the window each operation's result is its function of its operands' contents, so each value
  is, by definition of the stages, its stage.
-/
import proofs.«121249_j56453050139230_2_alg».proof.Proof.RefLive

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- The window's operations, in order (a called function's operations stand in its call's place). -/
abbrev ops1 : List (HloOp τ sig (Elt F)) :=
  [ nullary main_cst_6 (constant S_ .f32 0x3F000000#32),
    unary main_cst_6 main_v53 (broadcastInDim S4000000 ![] bcast_S_S4000000 : (⟨S_, .f32⟩ : BufTy).Contents (Elt F) → (⟨S4000000, .f32⟩ : BufTy).Contents (Elt F)),
    binary main_v53 main_v52 main_v54 (mulf : (⟨S4000000, .f32⟩ : BufTy).Contents (Elt F) → (⟨S4000000, .f32⟩ : BufTy).Contents (Elt F) → (⟨S4000000, .f32⟩ : BufTy).Contents (Elt F)),
    binary main_v50 main_v54 main_v55 (addf : (⟨S4000000, .f32⟩ : BufTy).Contents (Elt F) → (⟨S4000000, .f32⟩ : BufTy).Contents (Elt F) → (⟨S4000000, .f32⟩ : BufTy).Contents (Elt F)),
    binary main_v6 main_v41 main_v56 (minimumf : (⟨S4000000, .f32⟩ : BufTy).Contents (Elt F) → (⟨S4000000, .f32⟩ : BufTy).Contents (Elt F) → (⟨S4000000, .f32⟩ : BufTy).Contents (Elt F)),
    binary main_v6 main_v41 main_v57 (maximumf : (⟨S4000000, .f32⟩ : BufTy).Contents (Elt F) → (⟨S4000000, .f32⟩ : BufTy).Contents (Elt F) → (⟨S4000000, .f32⟩ : BufTy).Contents (Elt F)),
    binary main_v56 main_v57 main_v58 (subf : (⟨S4000000, .f32⟩ : BufTy).Contents (Elt F) → (⟨S4000000, .f32⟩ : BufTy).Contents (Elt F) → (⟨S4000000, .f32⟩ : BufTy).Contents (Elt F)),
    nullary main_cst_7 (constant S_ .f32 0x24E69595#32),
    unary main_cst_7 main_v59 (broadcastInDim S4000000 ![] bcast_S_S4000000 : (⟨S_, .f32⟩ : BufTy).Contents (Elt F) → (⟨S4000000, .f32⟩ : BufTy).Contents (Elt F)),
    binary main_v58 main_v59 main_v60 (addf : (⟨S4000000, .f32⟩ : BufTy).Contents (Elt F) → (⟨S4000000, .f32⟩ : BufTy).Contents (Elt F) → (⟨S4000000, .f32⟩ : BufTy).Contents (Elt F)),
    binary main_v27 main_v55 main_v61 (minimumf : (⟨S4000000, .f32⟩ : BufTy).Contents (Elt F) → (⟨S4000000, .f32⟩ : BufTy).Contents (Elt F) → (⟨S4000000, .f32⟩ : BufTy).Contents (Elt F)),
    binary main_v20 main_v48 main_v62 (maximumf : (⟨S4000000, .f32⟩ : BufTy).Contents (Elt F) → (⟨S4000000, .f32⟩ : BufTy).Contents (Elt F) → (⟨S4000000, .f32⟩ : BufTy).Contents (Elt F)),
    binary main_v61 main_v62 main_v63 (subf : (⟨S4000000, .f32⟩ : BufTy).Contents (Elt F) → (⟨S4000000, .f32⟩ : BufTy).Contents (Elt F) → (⟨S4000000, .f32⟩ : BufTy).Contents (Elt F)),
    nullary main_cst_8 (constant S_ .f32 0x24E69595#32),
    unary main_cst_8 main_v64 (broadcastInDim S4000000 ![] bcast_S_S4000000 : (⟨S_, .f32⟩ : BufTy).Contents (Elt F) → (⟨S4000000, .f32⟩ : BufTy).Contents (Elt F)),
    binary main_v63 main_v64 main_v65 (addf : (⟨S4000000, .f32⟩ : BufTy).Contents (Elt F) → (⟨S4000000, .f32⟩ : BufTy).Contents (Elt F) → (⟨S4000000, .f32⟩ : BufTy).Contents (Elt F)),
    nullary main_cst_9 (constant S_ .f32 0x00000000#32),
    unary main_cst_9 main_v66 (broadcastInDim S4000000 ![] bcast_S_S4000000 : (⟨S_, .f32⟩ : BufTy).Contents (Elt F) → (⟨S4000000, .f32⟩ : BufTy).Contents (Elt F)),
    binary main_v60 main_v66 main_v67 (cmpf .ogt : (⟨S4000000, .f32⟩ : BufTy).Contents (Elt F) → (⟨S4000000, .f32⟩ : BufTy).Contents (Elt F) → (⟨S4000000, .i1⟩ : BufTy).Contents (Elt F)),
    nullary main_cst_10 (constant S_ .f32 0x00000000#32),
    unary main_cst_10 main_v68 (broadcastInDim S4000000 ![] bcast_S_S4000000 : (⟨S_, .f32⟩ : BufTy).Contents (Elt F) → (⟨S4000000, .f32⟩ : BufTy).Contents (Elt F)),
    binary main_v65 main_v68 main_v69 (cmpf .ogt : (⟨S4000000, .f32⟩ : BufTy).Contents (Elt F) → (⟨S4000000, .f32⟩ : BufTy).Contents (Elt F) → (⟨S4000000, .i1⟩ : BufTy).Contents (Elt F)),
    binary main_v67 main_v69 main_v70 (andi : (⟨S4000000, .i1⟩ : BufTy).Contents (Elt F) → (⟨S4000000, .i1⟩ : BufTy).Contents (Elt F) → (⟨S4000000, .i1⟩ : BufTy).Contents (Elt F)),
    binary main_v60 main_v65 main_v71 (mulf : (⟨S4000000, .f32⟩ : BufTy).Contents (Elt F) → (⟨S4000000, .f32⟩ : BufTy).Contents (Elt F) → (⟨S4000000, .f32⟩ : BufTy).Contents (Elt F)),
    nullary main_cst_11 (constant S_ .f32 0x00000000#32),
    TRef.unary (TRef.of (T := ⟨S_, .f32⟩) main_cst_11) (TRef.of (T := ⟨S_, .f32⟩) main_call0_v0) id,
    TRef.unary (TRef.of (T := ⟨S_, .f32⟩) main_call0_v0) (TRef.of (T := ⟨S4000000, .f32⟩) main_call0_v1) (broadcastInDim S4000000 ![] bcast_S_S4000000),
    TRef.ternary (TRef.of (T := ⟨S4000000, .i1⟩) main_v70) (TRef.of (T := ⟨S4000000, .f32⟩) main_v71) (TRef.of (T := ⟨S4000000, .f32⟩) main_call0_v1) (TRef.of (T := ⟨S4000000, .f32⟩) main_v72) select,
    binary main_v13 main_v41 main_v73 (maximumf : (⟨S4000000, .f32⟩ : BufTy).Contents (Elt F) → (⟨S4000000, .f32⟩ : BufTy).Contents (Elt F) → (⟨S4000000, .f32⟩ : BufTy).Contents (Elt F)),
    binary main_v6 main_v34 main_v74 (minimumf : (⟨S4000000, .f32⟩ : BufTy).Contents (Elt F) → (⟨S4000000, .f32⟩ : BufTy).Contents (Elt F) → (⟨S4000000, .f32⟩ : BufTy).Contents (Elt F)),
    binary main_v73 main_v74 main_v75 (subf : (⟨S4000000, .f32⟩ : BufTy).Contents (Elt F) → (⟨S4000000, .f32⟩ : BufTy).Contents (Elt F) → (⟨S4000000, .f32⟩ : BufTy).Contents (Elt F)),
    nullary main_cst_12 (constant S_ .f32 0x24E69595#32),
    unary main_cst_12 main_v76 (broadcastInDim S4000000 ![] bcast_S_S4000000 : (⟨S_, .f32⟩ : BufTy).Contents (Elt F) → (⟨S4000000, .f32⟩ : BufTy).Contents (Elt F)),
    binary main_v75 main_v76 main_v77 (addf : (⟨S4000000, .f32⟩ : BufTy).Contents (Elt F) → (⟨S4000000, .f32⟩ : BufTy).Contents (Elt F) → (⟨S4000000, .f32⟩ : BufTy).Contents (Elt F)),
    binary main_v27 main_v55 main_v78 (maximumf : (⟨S4000000, .f32⟩ : BufTy).Contents (Elt F) → (⟨S4000000, .f32⟩ : BufTy).Contents (Elt F) → (⟨S4000000, .f32⟩ : BufTy).Contents (Elt F)),
    binary main_v20 main_v48 main_v79 (minimumf : (⟨S4000000, .f32⟩ : BufTy).Contents (Elt F) → (⟨S4000000, .f32⟩ : BufTy).Contents (Elt F) → (⟨S4000000, .f32⟩ : BufTy).Contents (Elt F)),
    binary main_v78 main_v79 main_v80 (subf : (⟨S4000000, .f32⟩ : BufTy).Contents (Elt F) → (⟨S4000000, .f32⟩ : BufTy).Contents (Elt F) → (⟨S4000000, .f32⟩ : BufTy).Contents (Elt F)),
    nullary main_cst_13 (constant S_ .f32 0x24E69595#32),
    unary main_cst_13 main_v81 (broadcastInDim S4000000 ![] bcast_S_S4000000 : (⟨S_, .f32⟩ : BufTy).Contents (Elt F) → (⟨S4000000, .f32⟩ : BufTy).Contents (Elt F)),
    binary main_v80 main_v81 main_v82 (addf : (⟨S4000000, .f32⟩ : BufTy).Contents (Elt F) → (⟨S4000000, .f32⟩ : BufTy).Contents (Elt F) → (⟨S4000000, .f32⟩ : BufTy).Contents (Elt F)),
    binary main_v77 main_v82 main_v83 (mulf : (⟨S4000000, .f32⟩ : BufTy).Contents (Elt F) → (⟨S4000000, .f32⟩ : BufTy).Contents (Elt F) → (⟨S4000000, .f32⟩ : BufTy).Contents (Elt F)),
    unary main_arg0 main_v84 ((extractStridedSlice S4000000x1 ![0, 0] · slices_S4000000x7_S4000000x1_0_0) : (⟨S4000000x7, .f32⟩ : BufTy).Contents (Elt F) → (⟨S4000000x1, .f32⟩ : BufTy).Contents (Elt F)),
    reshape main_v84 main_v85 rfl shapeCasts_S4000000x1_S4000000,
    unary main_arg0 main_v86 ((extractStridedSlice S4000000x1 ![0, 3] · slices_S4000000x7_S4000000x1_0_3) : (⟨S4000000x7, .f32⟩ : BufTy).Contents (Elt F) → (⟨S4000000x1, .f32⟩ : BufTy).Contents (Elt F)),
    reshape main_v86 main_v87 rfl shapeCasts_S4000000x1_S4000000,
    nullary main_cst_14 (constant S_ .f32 0x3F000000#32),
    unary main_cst_14 main_v88 (broadcastInDim S4000000 ![] bcast_S_S4000000 : (⟨S_, .f32⟩ : BufTy).Contents (Elt F) → (⟨S4000000, .f32⟩ : BufTy).Contents (Elt F)),
    binary main_v88 main_v87 main_v89 (mulf : (⟨S4000000, .f32⟩ : BufTy).Contents (Elt F) → (⟨S4000000, .f32⟩ : BufTy).Contents (Elt F) → (⟨S4000000, .f32⟩ : BufTy).Contents (Elt F)),
    binary main_v85 main_v89 main_v90 (subf : (⟨S4000000, .f32⟩ : BufTy).Contents (Elt F) → (⟨S4000000, .f32⟩ : BufTy).Contents (Elt F) → (⟨S4000000, .f32⟩ : BufTy).Contents (Elt F)),
    unary main_arg0 main_v91 ((extractStridedSlice S4000000x1 ![0, 0] · slices_S4000000x7_S4000000x1_0_0) : (⟨S4000000x7, .f32⟩ : BufTy).Contents (Elt F) → (⟨S4000000x1, .f32⟩ : BufTy).Contents (Elt F)),
    reshape main_v91 main_v92 rfl shapeCasts_S4000000x1_S4000000,
    unary main_arg0 main_v93 ((extractStridedSlice S4000000x1 ![0, 3] · slices_S4000000x7_S4000000x1_0_3) : (⟨S4000000x7, .f32⟩ : BufTy).Contents (Elt F) → (⟨S4000000x1, .f32⟩ : BufTy).Contents (Elt F)),
    reshape main_v93 main_v94 rfl shapeCasts_S4000000x1_S4000000,
    nullary main_cst_15 (constant S_ .f32 0x3F000000#32),
    unary main_cst_15 main_v95 (broadcastInDim S4000000 ![] bcast_S_S4000000 : (⟨S_, .f32⟩ : BufTy).Contents (Elt F) → (⟨S4000000, .f32⟩ : BufTy).Contents (Elt F)),
    binary main_v95 main_v94 main_v96 (mulf : (⟨S4000000, .f32⟩ : BufTy).Contents (Elt F) → (⟨S4000000, .f32⟩ : BufTy).Contents (Elt F) → (⟨S4000000, .f32⟩ : BufTy).Contents (Elt F)),
    binary main_v92 main_v96 main_v97 (addf : (⟨S4000000, .f32⟩ : BufTy).Contents (Elt F) → (⟨S4000000, .f32⟩ : BufTy).Contents (Elt F) → (⟨S4000000, .f32⟩ : BufTy).Contents (Elt F)),
    unary main_arg0 main_v98 ((extractStridedSlice S4000000x1 ![0, 1] · slices_S4000000x7_S4000000x1_0_1) : (⟨S4000000x7, .f32⟩ : BufTy).Contents (Elt F) → (⟨S4000000x1, .f32⟩ : BufTy).Contents (Elt F)),
    reshape main_v98 main_v99 rfl shapeCasts_S4000000x1_S4000000,
    unary main_arg0 main_v100 ((extractStridedSlice S4000000x1 ![0, 4] · slices_S4000000x7_S4000000x1_0_4) : (⟨S4000000x7, .f32⟩ : BufTy).Contents (Elt F) → (⟨S4000000x1, .f32⟩ : BufTy).Contents (Elt F)),
    reshape main_v100 main_v101 rfl shapeCasts_S4000000x1_S4000000,
    nullary main_cst_16 (constant S_ .f32 0x3F000000#32) ]

set_option maxRecDepth 8192 in
set_option maxHeartbeats 4000000 in
/-- The printed window is its list run in order. -/
theorem part1_eq (c : Dev nD) : main_part1 (F := F) c = seq ops1 := rfl

set_option maxRecDepth 8192 in
/-- Every operation's buffers are TensorCore buffers. -/
theorem ops1_sub : (ops1 : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub ..⟩

/-- Every operation determines what it writes. -/
theorem ops1_fresh : ∀ op ∈ (ops1 : List (HloOp τ sig (Elt F))), op.fresh = ∅ := by
  intro _ h; (repeat (cases h with | head => rfl | tail _ h => ?_)); exact nomatch h

set_option maxRecDepth 8192 in
set_option maxHeartbeats 4000000 in
/-- What later windows read, after this window, holds its stage. -/
theorem step1 (x0 x1 : (⟨S4000000x7, .f32⟩ : BufTy).Contents (Elt F)) (W : Valuation τ sig (Elt F)) (h : Live1 x0 x1 W) :
    Live2 x0 x1 (after ops1 W) := by
  obtain ⟨h_arg0, h_arg1, h_v6, h_v13, h_v20, h_v27, h_v34, h_v41, h_v48, h_v50, h_v52⟩ := h
  refine ⟨?_, ?_, ?_, ?_, ?_, ?_, ?_, ?_⟩
  all_goals (after_results_simp; (try simp only [h_arg0, h_arg1, h_v6, h_v13, h_v20, h_v27, h_v34, h_v41, h_v48, h_v50, h_v52]); try rfl)

end Cert.ReferenceIdeal.RefRun

end
-- ==== Proof.RefWin2.lean ====
/-
  Window 2 of the reference's straight line: the 60 host operations that write `main_v102` … `main_v152`, as a list;
  the printed `main_part2` is that list run in order; and, if before it the argument arrays are as launched and the
  values it reads from earlier windows hold their stages (`Live2`), then after it the same holds of what later windows
  read (`Live3`): inside the window each operation's result is its function of its operands' contents, so each value
  is, by definition of the stages, its stage.
-/
import proofs.«121249_j56453050139230_2_alg».proof.Proof.RefLive

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- The window's operations, in order (a called function's operations stand in its call's place). -/
abbrev ops2 : List (HloOp τ sig (Elt F)) :=
  [ unary main_cst_16 main_v102 (broadcastInDim S4000000 ![] bcast_S_S4000000 : (⟨S_, .f32⟩ : BufTy).Contents (Elt F) → (⟨S4000000, .f32⟩ : BufTy).Contents (Elt F)),
    binary main_v102 main_v101 main_v103 (mulf : (⟨S4000000, .f32⟩ : BufTy).Contents (Elt F) → (⟨S4000000, .f32⟩ : BufTy).Contents (Elt F) → (⟨S4000000, .f32⟩ : BufTy).Contents (Elt F)),
    binary main_v99 main_v103 main_v104 (subf : (⟨S4000000, .f32⟩ : BufTy).Contents (Elt F) → (⟨S4000000, .f32⟩ : BufTy).Contents (Elt F) → (⟨S4000000, .f32⟩ : BufTy).Contents (Elt F)),
    unary main_arg0 main_v105 ((extractStridedSlice S4000000x1 ![0, 1] · slices_S4000000x7_S4000000x1_0_1) : (⟨S4000000x7, .f32⟩ : BufTy).Contents (Elt F) → (⟨S4000000x1, .f32⟩ : BufTy).Contents (Elt F)),
    reshape main_v105 main_v106 rfl shapeCasts_S4000000x1_S4000000,
    unary main_arg0 main_v107 ((extractStridedSlice S4000000x1 ![0, 4] · slices_S4000000x7_S4000000x1_0_4) : (⟨S4000000x7, .f32⟩ : BufTy).Contents (Elt F) → (⟨S4000000x1, .f32⟩ : BufTy).Contents (Elt F)),
    reshape main_v107 main_v108 rfl shapeCasts_S4000000x1_S4000000,
    nullary main_cst_17 (constant S_ .f32 0x3F000000#32),
    unary main_cst_17 main_v109 (broadcastInDim S4000000 ![] bcast_S_S4000000 : (⟨S_, .f32⟩ : BufTy).Contents (Elt F) → (⟨S4000000, .f32⟩ : BufTy).Contents (Elt F)),
    binary main_v109 main_v108 main_v110 (mulf : (⟨S4000000, .f32⟩ : BufTy).Contents (Elt F) → (⟨S4000000, .f32⟩ : BufTy).Contents (Elt F) → (⟨S4000000, .f32⟩ : BufTy).Contents (Elt F)),
    binary main_v106 main_v110 main_v111 (addf : (⟨S4000000, .f32⟩ : BufTy).Contents (Elt F) → (⟨S4000000, .f32⟩ : BufTy).Contents (Elt F) → (⟨S4000000, .f32⟩ : BufTy).Contents (Elt F)),
    unary main_arg1 main_v112 ((extractStridedSlice S4000000x1 ![0, 0] · slices_S4000000x7_S4000000x1_0_0) : (⟨S4000000x7, .f32⟩ : BufTy).Contents (Elt F) → (⟨S4000000x1, .f32⟩ : BufTy).Contents (Elt F)),
    reshape main_v112 main_v113 rfl shapeCasts_S4000000x1_S4000000,
    unary main_arg1 main_v114 ((extractStridedSlice S4000000x1 ![0, 3] · slices_S4000000x7_S4000000x1_0_3) : (⟨S4000000x7, .f32⟩ : BufTy).Contents (Elt F) → (⟨S4000000x1, .f32⟩ : BufTy).Contents (Elt F)),
    reshape main_v114 main_v115 rfl shapeCasts_S4000000x1_S4000000,
    nullary main_cst_18 (constant S_ .f32 0x3F000000#32),
    unary main_cst_18 main_v116 (broadcastInDim S4000000 ![] bcast_S_S4000000 : (⟨S_, .f32⟩ : BufTy).Contents (Elt F) → (⟨S4000000, .f32⟩ : BufTy).Contents (Elt F)),
    binary main_v116 main_v115 main_v117 (mulf : (⟨S4000000, .f32⟩ : BufTy).Contents (Elt F) → (⟨S4000000, .f32⟩ : BufTy).Contents (Elt F) → (⟨S4000000, .f32⟩ : BufTy).Contents (Elt F)),
    binary main_v113 main_v117 main_v118 (subf : (⟨S4000000, .f32⟩ : BufTy).Contents (Elt F) → (⟨S4000000, .f32⟩ : BufTy).Contents (Elt F) → (⟨S4000000, .f32⟩ : BufTy).Contents (Elt F)),
    unary main_arg1 main_v119 ((extractStridedSlice S4000000x1 ![0, 0] · slices_S4000000x7_S4000000x1_0_0) : (⟨S4000000x7, .f32⟩ : BufTy).Contents (Elt F) → (⟨S4000000x1, .f32⟩ : BufTy).Contents (Elt F)),
    reshape main_v119 main_v120 rfl shapeCasts_S4000000x1_S4000000,
    unary main_arg1 main_v121 ((extractStridedSlice S4000000x1 ![0, 3] · slices_S4000000x7_S4000000x1_0_3) : (⟨S4000000x7, .f32⟩ : BufTy).Contents (Elt F) → (⟨S4000000x1, .f32⟩ : BufTy).Contents (Elt F)),
    reshape main_v121 main_v122 rfl shapeCasts_S4000000x1_S4000000,
    nullary main_cst_19 (constant S_ .f32 0x3F000000#32),
    unary main_cst_19 main_v123 (broadcastInDim S4000000 ![] bcast_S_S4000000 : (⟨S_, .f32⟩ : BufTy).Contents (Elt F) → (⟨S4000000, .f32⟩ : BufTy).Contents (Elt F)),
    binary main_v123 main_v122 main_v124 (mulf : (⟨S4000000, .f32⟩ : BufTy).Contents (Elt F) → (⟨S4000000, .f32⟩ : BufTy).Contents (Elt F) → (⟨S4000000, .f32⟩ : BufTy).Contents (Elt F)),
    binary main_v120 main_v124 main_v125 (addf : (⟨S4000000, .f32⟩ : BufTy).Contents (Elt F) → (⟨S4000000, .f32⟩ : BufTy).Contents (Elt F) → (⟨S4000000, .f32⟩ : BufTy).Contents (Elt F)),
    unary main_arg1 main_v126 ((extractStridedSlice S4000000x1 ![0, 1] · slices_S4000000x7_S4000000x1_0_1) : (⟨S4000000x7, .f32⟩ : BufTy).Contents (Elt F) → (⟨S4000000x1, .f32⟩ : BufTy).Contents (Elt F)),
    reshape main_v126 main_v127 rfl shapeCasts_S4000000x1_S4000000,
    unary main_arg1 main_v128 ((extractStridedSlice S4000000x1 ![0, 4] · slices_S4000000x7_S4000000x1_0_4) : (⟨S4000000x7, .f32⟩ : BufTy).Contents (Elt F) → (⟨S4000000x1, .f32⟩ : BufTy).Contents (Elt F)),
    reshape main_v128 main_v129 rfl shapeCasts_S4000000x1_S4000000,
    nullary main_cst_20 (constant S_ .f32 0x3F000000#32),
    unary main_cst_20 main_v130 (broadcastInDim S4000000 ![] bcast_S_S4000000 : (⟨S_, .f32⟩ : BufTy).Contents (Elt F) → (⟨S4000000, .f32⟩ : BufTy).Contents (Elt F)),
    binary main_v130 main_v129 main_v131 (mulf : (⟨S4000000, .f32⟩ : BufTy).Contents (Elt F) → (⟨S4000000, .f32⟩ : BufTy).Contents (Elt F) → (⟨S4000000, .f32⟩ : BufTy).Contents (Elt F)),
    binary main_v127 main_v131 main_v132 (subf : (⟨S4000000, .f32⟩ : BufTy).Contents (Elt F) → (⟨S4000000, .f32⟩ : BufTy).Contents (Elt F) → (⟨S4000000, .f32⟩ : BufTy).Contents (Elt F)),
    unary main_arg1 main_v133 ((extractStridedSlice S4000000x1 ![0, 1] · slices_S4000000x7_S4000000x1_0_1) : (⟨S4000000x7, .f32⟩ : BufTy).Contents (Elt F) → (⟨S4000000x1, .f32⟩ : BufTy).Contents (Elt F)),
    reshape main_v133 main_v134 rfl shapeCasts_S4000000x1_S4000000,
    unary main_arg1 main_v135 ((extractStridedSlice S4000000x1 ![0, 4] · slices_S4000000x7_S4000000x1_0_4) : (⟨S4000000x7, .f32⟩ : BufTy).Contents (Elt F) → (⟨S4000000x1, .f32⟩ : BufTy).Contents (Elt F)),
    reshape main_v135 main_v136 rfl shapeCasts_S4000000x1_S4000000,
    nullary main_cst_21 (constant S_ .f32 0x3F000000#32),
    unary main_cst_21 main_v137 (broadcastInDim S4000000 ![] bcast_S_S4000000 : (⟨S_, .f32⟩ : BufTy).Contents (Elt F) → (⟨S4000000, .f32⟩ : BufTy).Contents (Elt F)),
    binary main_v137 main_v136 main_v138 (mulf : (⟨S4000000, .f32⟩ : BufTy).Contents (Elt F) → (⟨S4000000, .f32⟩ : BufTy).Contents (Elt F) → (⟨S4000000, .f32⟩ : BufTy).Contents (Elt F)),
    binary main_v134 main_v138 main_v139 (addf : (⟨S4000000, .f32⟩ : BufTy).Contents (Elt F) → (⟨S4000000, .f32⟩ : BufTy).Contents (Elt F) → (⟨S4000000, .f32⟩ : BufTy).Contents (Elt F)),
    binary main_v90 main_v125 main_v140 (minimumf : (⟨S4000000, .f32⟩ : BufTy).Contents (Elt F) → (⟨S4000000, .f32⟩ : BufTy).Contents (Elt F) → (⟨S4000000, .f32⟩ : BufTy).Contents (Elt F)),
    binary main_v90 main_v125 main_v141 (maximumf : (⟨S4000000, .f32⟩ : BufTy).Contents (Elt F) → (⟨S4000000, .f32⟩ : BufTy).Contents (Elt F) → (⟨S4000000, .f32⟩ : BufTy).Contents (Elt F)),
    binary main_v140 main_v141 main_v142 (subf : (⟨S4000000, .f32⟩ : BufTy).Contents (Elt F) → (⟨S4000000, .f32⟩ : BufTy).Contents (Elt F) → (⟨S4000000, .f32⟩ : BufTy).Contents (Elt F)),
    nullary main_cst_22 (constant S_ .f32 0x24E69595#32),
    unary main_cst_22 main_v143 (broadcastInDim S4000000 ![] bcast_S_S4000000 : (⟨S_, .f32⟩ : BufTy).Contents (Elt F) → (⟨S4000000, .f32⟩ : BufTy).Contents (Elt F)),
    binary main_v142 main_v143 main_v144 (addf : (⟨S4000000, .f32⟩ : BufTy).Contents (Elt F) → (⟨S4000000, .f32⟩ : BufTy).Contents (Elt F) → (⟨S4000000, .f32⟩ : BufTy).Contents (Elt F)),
    binary main_v111 main_v139 main_v145 (minimumf : (⟨S4000000, .f32⟩ : BufTy).Contents (Elt F) → (⟨S4000000, .f32⟩ : BufTy).Contents (Elt F) → (⟨S4000000, .f32⟩ : BufTy).Contents (Elt F)),
    binary main_v104 main_v132 main_v146 (maximumf : (⟨S4000000, .f32⟩ : BufTy).Contents (Elt F) → (⟨S4000000, .f32⟩ : BufTy).Contents (Elt F) → (⟨S4000000, .f32⟩ : BufTy).Contents (Elt F)),
    binary main_v145 main_v146 main_v147 (subf : (⟨S4000000, .f32⟩ : BufTy).Contents (Elt F) → (⟨S4000000, .f32⟩ : BufTy).Contents (Elt F) → (⟨S4000000, .f32⟩ : BufTy).Contents (Elt F)),
    nullary main_cst_23 (constant S_ .f32 0x24E69595#32),
    unary main_cst_23 main_v148 (broadcastInDim S4000000 ![] bcast_S_S4000000 : (⟨S_, .f32⟩ : BufTy).Contents (Elt F) → (⟨S4000000, .f32⟩ : BufTy).Contents (Elt F)),
    binary main_v147 main_v148 main_v149 (addf : (⟨S4000000, .f32⟩ : BufTy).Contents (Elt F) → (⟨S4000000, .f32⟩ : BufTy).Contents (Elt F) → (⟨S4000000, .f32⟩ : BufTy).Contents (Elt F)),
    nullary main_cst_24 (constant S_ .f32 0x00000000#32),
    unary main_cst_24 main_v150 (broadcastInDim S4000000 ![] bcast_S_S4000000 : (⟨S_, .f32⟩ : BufTy).Contents (Elt F) → (⟨S4000000, .f32⟩ : BufTy).Contents (Elt F)),
    binary main_v144 main_v150 main_v151 (cmpf .ogt : (⟨S4000000, .f32⟩ : BufTy).Contents (Elt F) → (⟨S4000000, .f32⟩ : BufTy).Contents (Elt F) → (⟨S4000000, .i1⟩ : BufTy).Contents (Elt F)),
    nullary main_cst_25 (constant S_ .f32 0x00000000#32),
    unary main_cst_25 main_v152 (broadcastInDim S4000000 ![] bcast_S_S4000000 : (⟨S_, .f32⟩ : BufTy).Contents (Elt F) → (⟨S4000000, .f32⟩ : BufTy).Contents (Elt F)) ]

set_option maxRecDepth 8192 in
set_option maxHeartbeats 4000000 in
/-- The printed window is its list run in order. -/
theorem part2_eq (c : Dev nD) : main_part2 (F := F) c = seq ops2 := rfl

set_option maxRecDepth 8192 in
/-- Every operation's buffers are TensorCore buffers. -/
theorem ops2_sub : (ops2 : List (HloOp τ sig (Elt F))).Forall fun op => op.bufs ⊆ tcRefs τ sig :=
  ⟨unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub ..⟩

/-- Every operation determines what it writes. -/
theorem ops2_fresh : ∀ op ∈ (ops2 : List (HloOp τ sig (Elt F))), op.fresh = ∅ := by
  intro _ h; (repeat (cases h with | head => rfl | tail _ h => ?_)); exact nomatch h

set_option maxRecDepth 8192 in
set_option maxHeartbeats 4000000 in
/-- What later windows read, after this window, holds its stage. -/
theorem step2 (x0 x1 : (⟨S4000000x7, .f32⟩ : BufTy).Contents (Elt F)) (W : Valuation τ sig (Elt F)) (h : Live2 x0 x1 W) :
    Live3 x0 x1 (after ops2 W) := by
  obtain ⟨h_arg0, h_arg1, h_v72, h_v83, h_v90, h_v99, h_v101, h_cst_16⟩ := h
  refine ⟨?_, ?_, ?_, ?_, ?_, ?_, ?_, ?_⟩
  all_goals (after_results_simp; (try simp only [h_arg0, h_arg1, h_v72, h_v83, h_v90, h_v99, h_v101, h_cst_16]); try rfl)

end Cert.ReferenceIdeal.RefRun

end
-- ==== Proof.RefWin3.lean ====
/-
  Window 3 of the reference's straight line: the 62 host operations that write `main_v153` … `main_v204`, as a list;
  the printed `main_part3` is that list run in order; and, if before it the argument arrays are as launched and the
  values it reads from earlier windows hold their stages (`Live3`), then after it the same holds of what later windows
  read (`Live4`): inside the window each operation's result is its function of its operands' contents, so each value
  is, by definition of the stages, its stage.
-/
import proofs.«121249_j56453050139230_2_alg».proof.Proof.RefLive

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- The window's operations, in order (a called function's operations stand in its call's place). -/
abbrev ops3 : List (HloOp τ sig (Elt F)) :=
  [ binary main_v149 main_v152 main_v153 (cmpf .ogt : (⟨S4000000, .f32⟩ : BufTy).Contents (Elt F) → (⟨S4000000, .f32⟩ : BufTy).Contents (Elt F) → (⟨S4000000, .i1⟩ : BufTy).Contents (Elt F)),
    binary main_v151 main_v153 main_v154 (andi : (⟨S4000000, .i1⟩ : BufTy).Contents (Elt F) → (⟨S4000000, .i1⟩ : BufTy).Contents (Elt F) → (⟨S4000000, .i1⟩ : BufTy).Contents (Elt F)),
    binary main_v144 main_v149 main_v155 (mulf : (⟨S4000000, .f32⟩ : BufTy).Contents (Elt F) → (⟨S4000000, .f32⟩ : BufTy).Contents (Elt F) → (⟨S4000000, .f32⟩ : BufTy).Contents (Elt F)),
    nullary main_cst_26 (constant S_ .f32 0x00000000#32),
    TRef.unary (TRef.of (T := ⟨S_, .f32⟩) main_cst_26) (TRef.of (T := ⟨S_, .f32⟩) main_call1_v0) id,
    TRef.unary (TRef.of (T := ⟨S_, .f32⟩) main_call1_v0) (TRef.of (T := ⟨S4000000, .f32⟩) main_call1_v1) (broadcastInDim S4000000 ![] bcast_S_S4000000),
    TRef.ternary (TRef.of (T := ⟨S4000000, .i1⟩) main_v154) (TRef.of (T := ⟨S4000000, .f32⟩) main_v155) (TRef.of (T := ⟨S4000000, .f32⟩) main_call1_v1) (TRef.of (T := ⟨S4000000, .f32⟩) main_v156) select,
    binary main_v97 main_v125 main_v157 (maximumf : (⟨S4000000, .f32⟩ : BufTy).Contents (Elt F) → (⟨S4000000, .f32⟩ : BufTy).Contents (Elt F) → (⟨S4000000, .f32⟩ : BufTy).Contents (Elt F)),
    binary main_v90 main_v118 main_v158 (minimumf : (⟨S4000000, .f32⟩ : BufTy).Contents (Elt F) → (⟨S4000000, .f32⟩ : BufTy).Contents (Elt F) → (⟨S4000000, .f32⟩ : BufTy).Contents (Elt F)),
    binary main_v157 main_v158 main_v159 (subf : (⟨S4000000, .f32⟩ : BufTy).Contents (Elt F) → (⟨S4000000, .f32⟩ : BufTy).Contents (Elt F) → (⟨S4000000, .f32⟩ : BufTy).Contents (Elt F)),
    nullary main_cst_27 (constant S_ .f32 0x24E69595#32),
    unary main_cst_27 main_v160 (broadcastInDim S4000000 ![] bcast_S_S4000000 : (⟨S_, .f32⟩ : BufTy).Contents (Elt F) → (⟨S4000000, .f32⟩ : BufTy).Contents (Elt F)),
    binary main_v159 main_v160 main_v161 (addf : (⟨S4000000, .f32⟩ : BufTy).Contents (Elt F) → (⟨S4000000, .f32⟩ : BufTy).Contents (Elt F) → (⟨S4000000, .f32⟩ : BufTy).Contents (Elt F)),
    binary main_v111 main_v139 main_v162 (maximumf : (⟨S4000000, .f32⟩ : BufTy).Contents (Elt F) → (⟨S4000000, .f32⟩ : BufTy).Contents (Elt F) → (⟨S4000000, .f32⟩ : BufTy).Contents (Elt F)),
    binary main_v104 main_v132 main_v163 (minimumf : (⟨S4000000, .f32⟩ : BufTy).Contents (Elt F) → (⟨S4000000, .f32⟩ : BufTy).Contents (Elt F) → (⟨S4000000, .f32⟩ : BufTy).Contents (Elt F)),
    binary main_v162 main_v163 main_v164 (subf : (⟨S4000000, .f32⟩ : BufTy).Contents (Elt F) → (⟨S4000000, .f32⟩ : BufTy).Contents (Elt F) → (⟨S4000000, .f32⟩ : BufTy).Contents (Elt F)),
    nullary main_cst_28 (constant S_ .f32 0x24E69595#32),
    unary main_cst_28 main_v165 (broadcastInDim S4000000 ![] bcast_S_S4000000 : (⟨S_, .f32⟩ : BufTy).Contents (Elt F) → (⟨S4000000, .f32⟩ : BufTy).Contents (Elt F)),
    binary main_v164 main_v165 main_v166 (addf : (⟨S4000000, .f32⟩ : BufTy).Contents (Elt F) → (⟨S4000000, .f32⟩ : BufTy).Contents (Elt F) → (⟨S4000000, .f32⟩ : BufTy).Contents (Elt F)),
    binary main_v161 main_v166 main_v167 (mulf : (⟨S4000000, .f32⟩ : BufTy).Contents (Elt F) → (⟨S4000000, .f32⟩ : BufTy).Contents (Elt F) → (⟨S4000000, .f32⟩ : BufTy).Contents (Elt F)),
    unary main_arg0 main_v168 ((extractStridedSlice S4000000x1 ![0, 1] · slices_S4000000x7_S4000000x1_0_1) : (⟨S4000000x7, .f32⟩ : BufTy).Contents (Elt F) → (⟨S4000000x1, .f32⟩ : BufTy).Contents (Elt F)),
    reshape main_v168 main_v169 rfl shapeCasts_S4000000x1_S4000000,
    unary main_arg0 main_v170 ((extractStridedSlice S4000000x1 ![0, 4] · slices_S4000000x7_S4000000x1_0_4) : (⟨S4000000x7, .f32⟩ : BufTy).Contents (Elt F) → (⟨S4000000x1, .f32⟩ : BufTy).Contents (Elt F)),
    reshape main_v170 main_v171 rfl shapeCasts_S4000000x1_S4000000,
    nullary main_cst_29 (constant S_ .f32 0x3F000000#32),
    unary main_cst_29 main_v172 (broadcastInDim S4000000 ![] bcast_S_S4000000 : (⟨S_, .f32⟩ : BufTy).Contents (Elt F) → (⟨S4000000, .f32⟩ : BufTy).Contents (Elt F)),
    binary main_v172 main_v171 main_v173 (mulf : (⟨S4000000, .f32⟩ : BufTy).Contents (Elt F) → (⟨S4000000, .f32⟩ : BufTy).Contents (Elt F) → (⟨S4000000, .f32⟩ : BufTy).Contents (Elt F)),
    binary main_v169 main_v173 main_v174 (subf : (⟨S4000000, .f32⟩ : BufTy).Contents (Elt F) → (⟨S4000000, .f32⟩ : BufTy).Contents (Elt F) → (⟨S4000000, .f32⟩ : BufTy).Contents (Elt F)),
    unary main_arg0 main_v175 ((extractStridedSlice S4000000x1 ![0, 1] · slices_S4000000x7_S4000000x1_0_1) : (⟨S4000000x7, .f32⟩ : BufTy).Contents (Elt F) → (⟨S4000000x1, .f32⟩ : BufTy).Contents (Elt F)),
    reshape main_v175 main_v176 rfl shapeCasts_S4000000x1_S4000000,
    unary main_arg0 main_v177 ((extractStridedSlice S4000000x1 ![0, 4] · slices_S4000000x7_S4000000x1_0_4) : (⟨S4000000x7, .f32⟩ : BufTy).Contents (Elt F) → (⟨S4000000x1, .f32⟩ : BufTy).Contents (Elt F)),
    reshape main_v177 main_v178 rfl shapeCasts_S4000000x1_S4000000,
    nullary main_cst_30 (constant S_ .f32 0x3F000000#32),
    unary main_cst_30 main_v179 (broadcastInDim S4000000 ![] bcast_S_S4000000 : (⟨S_, .f32⟩ : BufTy).Contents (Elt F) → (⟨S4000000, .f32⟩ : BufTy).Contents (Elt F)),
    binary main_v179 main_v178 main_v180 (mulf : (⟨S4000000, .f32⟩ : BufTy).Contents (Elt F) → (⟨S4000000, .f32⟩ : BufTy).Contents (Elt F) → (⟨S4000000, .f32⟩ : BufTy).Contents (Elt F)),
    binary main_v176 main_v180 main_v181 (addf : (⟨S4000000, .f32⟩ : BufTy).Contents (Elt F) → (⟨S4000000, .f32⟩ : BufTy).Contents (Elt F) → (⟨S4000000, .f32⟩ : BufTy).Contents (Elt F)),
    unary main_arg0 main_v182 ((extractStridedSlice S4000000x1 ![0, 2] · slices_S4000000x7_S4000000x1_0_2) : (⟨S4000000x7, .f32⟩ : BufTy).Contents (Elt F) → (⟨S4000000x1, .f32⟩ : BufTy).Contents (Elt F)),
    reshape main_v182 main_v183 rfl shapeCasts_S4000000x1_S4000000,
    unary main_arg0 main_v184 ((extractStridedSlice S4000000x1 ![0, 5] · slices_S4000000x7_S4000000x1_0_5) : (⟨S4000000x7, .f32⟩ : BufTy).Contents (Elt F) → (⟨S4000000x1, .f32⟩ : BufTy).Contents (Elt F)),
    reshape main_v184 main_v185 rfl shapeCasts_S4000000x1_S4000000,
    nullary main_cst_31 (constant S_ .f32 0x3F000000#32),
    unary main_cst_31 main_v186 (broadcastInDim S4000000 ![] bcast_S_S4000000 : (⟨S_, .f32⟩ : BufTy).Contents (Elt F) → (⟨S4000000, .f32⟩ : BufTy).Contents (Elt F)),
    binary main_v186 main_v185 main_v187 (mulf : (⟨S4000000, .f32⟩ : BufTy).Contents (Elt F) → (⟨S4000000, .f32⟩ : BufTy).Contents (Elt F) → (⟨S4000000, .f32⟩ : BufTy).Contents (Elt F)),
    binary main_v183 main_v187 main_v188 (subf : (⟨S4000000, .f32⟩ : BufTy).Contents (Elt F) → (⟨S4000000, .f32⟩ : BufTy).Contents (Elt F) → (⟨S4000000, .f32⟩ : BufTy).Contents (Elt F)),
    unary main_arg0 main_v189 ((extractStridedSlice S4000000x1 ![0, 2] · slices_S4000000x7_S4000000x1_0_2) : (⟨S4000000x7, .f32⟩ : BufTy).Contents (Elt F) → (⟨S4000000x1, .f32⟩ : BufTy).Contents (Elt F)),
    reshape main_v189 main_v190 rfl shapeCasts_S4000000x1_S4000000,
    unary main_arg0 main_v191 ((extractStridedSlice S4000000x1 ![0, 5] · slices_S4000000x7_S4000000x1_0_5) : (⟨S4000000x7, .f32⟩ : BufTy).Contents (Elt F) → (⟨S4000000x1, .f32⟩ : BufTy).Contents (Elt F)),
    reshape main_v191 main_v192 rfl shapeCasts_S4000000x1_S4000000,
    nullary main_cst_32 (constant S_ .f32 0x3F000000#32),
    unary main_cst_32 main_v193 (broadcastInDim S4000000 ![] bcast_S_S4000000 : (⟨S_, .f32⟩ : BufTy).Contents (Elt F) → (⟨S4000000, .f32⟩ : BufTy).Contents (Elt F)),
    binary main_v193 main_v192 main_v194 (mulf : (⟨S4000000, .f32⟩ : BufTy).Contents (Elt F) → (⟨S4000000, .f32⟩ : BufTy).Contents (Elt F) → (⟨S4000000, .f32⟩ : BufTy).Contents (Elt F)),
    binary main_v190 main_v194 main_v195 (addf : (⟨S4000000, .f32⟩ : BufTy).Contents (Elt F) → (⟨S4000000, .f32⟩ : BufTy).Contents (Elt F) → (⟨S4000000, .f32⟩ : BufTy).Contents (Elt F)),
    unary main_arg1 main_v196 ((extractStridedSlice S4000000x1 ![0, 1] · slices_S4000000x7_S4000000x1_0_1) : (⟨S4000000x7, .f32⟩ : BufTy).Contents (Elt F) → (⟨S4000000x1, .f32⟩ : BufTy).Contents (Elt F)),
    reshape main_v196 main_v197 rfl shapeCasts_S4000000x1_S4000000,
    unary main_arg1 main_v198 ((extractStridedSlice S4000000x1 ![0, 4] · slices_S4000000x7_S4000000x1_0_4) : (⟨S4000000x7, .f32⟩ : BufTy).Contents (Elt F) → (⟨S4000000x1, .f32⟩ : BufTy).Contents (Elt F)),
    reshape main_v198 main_v199 rfl shapeCasts_S4000000x1_S4000000,
    nullary main_cst_33 (constant S_ .f32 0x3F000000#32),
    unary main_cst_33 main_v200 (broadcastInDim S4000000 ![] bcast_S_S4000000 : (⟨S_, .f32⟩ : BufTy).Contents (Elt F) → (⟨S4000000, .f32⟩ : BufTy).Contents (Elt F)),
    binary main_v200 main_v199 main_v201 (mulf : (⟨S4000000, .f32⟩ : BufTy).Contents (Elt F) → (⟨S4000000, .f32⟩ : BufTy).Contents (Elt F) → (⟨S4000000, .f32⟩ : BufTy).Contents (Elt F)),
    binary main_v197 main_v201 main_v202 (subf : (⟨S4000000, .f32⟩ : BufTy).Contents (Elt F) → (⟨S4000000, .f32⟩ : BufTy).Contents (Elt F) → (⟨S4000000, .f32⟩ : BufTy).Contents (Elt F)),
    unary main_arg1 main_v203 ((extractStridedSlice S4000000x1 ![0, 1] · slices_S4000000x7_S4000000x1_0_1) : (⟨S4000000x7, .f32⟩ : BufTy).Contents (Elt F) → (⟨S4000000x1, .f32⟩ : BufTy).Contents (Elt F)),
    reshape main_v203 main_v204 rfl shapeCasts_S4000000x1_S4000000 ]

set_option maxRecDepth 8192 in
set_option maxHeartbeats 4000000 in
/-- The printed window is its list run in order. -/
theorem part3_eq (c : Dev nD) : main_part3 (F := F) c = seq ops3 := rfl

set_option maxRecDepth 8192 in
/-- Every operation's buffers are TensorCore buffers. -/
theorem ops3_sub : (ops3 : List (HloOp τ sig (Elt F))).Forall fun op => op.bufs ⊆ tcRefs τ sig :=
  ⟨binary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub ..⟩

/-- Every operation determines what it writes. -/
theorem ops3_fresh : ∀ op ∈ (ops3 : List (HloOp τ sig (Elt F))), op.fresh = ∅ := by
  intro _ h; (repeat (cases h with | head => rfl | tail _ h => ?_)); exact nomatch h

set_option maxRecDepth 8192 in
set_option maxHeartbeats 4000000 in
/-- What later windows read, after this window, holds its stage. -/
theorem step3 (x0 x1 : (⟨S4000000x7, .f32⟩ : BufTy).Contents (Elt F)) (W : Valuation τ sig (Elt F)) (h : Live3 x0 x1 W) :
    Live4 x0 x1 (after ops3 W) := by
  obtain ⟨h_arg0, h_arg1, h_v72, h_v83, h_v144, h_v149, h_v151, h_v152⟩ := h
  refine ⟨?_, ?_, ?_, ?_, ?_, ?_, ?_, ?_, ?_, ?_, ?_⟩
  all_goals (after_results_simp; (try simp only [h_arg0, h_arg1, h_v72, h_v83, h_v144, h_v149, h_v151, h_v152]); try rfl)

end Cert.ReferenceIdeal.RefRun

end
-- ==== Proof.RefWin4.lean ====
/-
  Window 4 of the reference's straight line: the 62 host operations that write `main_v205` … `main_v254`, as a list;
  the printed `main_part4` is that list run in order; and, if before it the argument arrays are as launched and the
  values it reads from earlier windows hold their stages (`Live4`), then after it the same holds of what later windows
  read (`Live5`): inside the window each operation's result is its function of its operands' contents, so each value
  is, by definition of the stages, its stage.
-/
import proofs.«121249_j56453050139230_2_alg».proof.Proof.RefLive

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- The window's operations, in order (a called function's operations stand in its call's place). -/
abbrev ops4 : List (HloOp τ sig (Elt F)) :=
  [ unary main_arg1 main_v205 ((extractStridedSlice S4000000x1 ![0, 4] · slices_S4000000x7_S4000000x1_0_4) : (⟨S4000000x7, .f32⟩ : BufTy).Contents (Elt F) → (⟨S4000000x1, .f32⟩ : BufTy).Contents (Elt F)),
    reshape main_v205 main_v206 rfl shapeCasts_S4000000x1_S4000000,
    nullary main_cst_34 (constant S_ .f32 0x3F000000#32),
    unary main_cst_34 main_v207 (broadcastInDim S4000000 ![] bcast_S_S4000000 : (⟨S_, .f32⟩ : BufTy).Contents (Elt F) → (⟨S4000000, .f32⟩ : BufTy).Contents (Elt F)),
    binary main_v207 main_v206 main_v208 (mulf : (⟨S4000000, .f32⟩ : BufTy).Contents (Elt F) → (⟨S4000000, .f32⟩ : BufTy).Contents (Elt F) → (⟨S4000000, .f32⟩ : BufTy).Contents (Elt F)),
    binary main_v204 main_v208 main_v209 (addf : (⟨S4000000, .f32⟩ : BufTy).Contents (Elt F) → (⟨S4000000, .f32⟩ : BufTy).Contents (Elt F) → (⟨S4000000, .f32⟩ : BufTy).Contents (Elt F)),
    unary main_arg1 main_v210 ((extractStridedSlice S4000000x1 ![0, 2] · slices_S4000000x7_S4000000x1_0_2) : (⟨S4000000x7, .f32⟩ : BufTy).Contents (Elt F) → (⟨S4000000x1, .f32⟩ : BufTy).Contents (Elt F)),
    reshape main_v210 main_v211 rfl shapeCasts_S4000000x1_S4000000,
    unary main_arg1 main_v212 ((extractStridedSlice S4000000x1 ![0, 5] · slices_S4000000x7_S4000000x1_0_5) : (⟨S4000000x7, .f32⟩ : BufTy).Contents (Elt F) → (⟨S4000000x1, .f32⟩ : BufTy).Contents (Elt F)),
    reshape main_v212 main_v213 rfl shapeCasts_S4000000x1_S4000000,
    nullary main_cst_35 (constant S_ .f32 0x3F000000#32),
    unary main_cst_35 main_v214 (broadcastInDim S4000000 ![] bcast_S_S4000000 : (⟨S_, .f32⟩ : BufTy).Contents (Elt F) → (⟨S4000000, .f32⟩ : BufTy).Contents (Elt F)),
    binary main_v214 main_v213 main_v215 (mulf : (⟨S4000000, .f32⟩ : BufTy).Contents (Elt F) → (⟨S4000000, .f32⟩ : BufTy).Contents (Elt F) → (⟨S4000000, .f32⟩ : BufTy).Contents (Elt F)),
    binary main_v211 main_v215 main_v216 (subf : (⟨S4000000, .f32⟩ : BufTy).Contents (Elt F) → (⟨S4000000, .f32⟩ : BufTy).Contents (Elt F) → (⟨S4000000, .f32⟩ : BufTy).Contents (Elt F)),
    unary main_arg1 main_v217 ((extractStridedSlice S4000000x1 ![0, 2] · slices_S4000000x7_S4000000x1_0_2) : (⟨S4000000x7, .f32⟩ : BufTy).Contents (Elt F) → (⟨S4000000x1, .f32⟩ : BufTy).Contents (Elt F)),
    reshape main_v217 main_v218 rfl shapeCasts_S4000000x1_S4000000,
    unary main_arg1 main_v219 ((extractStridedSlice S4000000x1 ![0, 5] · slices_S4000000x7_S4000000x1_0_5) : (⟨S4000000x7, .f32⟩ : BufTy).Contents (Elt F) → (⟨S4000000x1, .f32⟩ : BufTy).Contents (Elt F)),
    reshape main_v219 main_v220 rfl shapeCasts_S4000000x1_S4000000,
    nullary main_cst_36 (constant S_ .f32 0x3F000000#32),
    unary main_cst_36 main_v221 (broadcastInDim S4000000 ![] bcast_S_S4000000 : (⟨S_, .f32⟩ : BufTy).Contents (Elt F) → (⟨S4000000, .f32⟩ : BufTy).Contents (Elt F)),
    binary main_v221 main_v220 main_v222 (mulf : (⟨S4000000, .f32⟩ : BufTy).Contents (Elt F) → (⟨S4000000, .f32⟩ : BufTy).Contents (Elt F) → (⟨S4000000, .f32⟩ : BufTy).Contents (Elt F)),
    binary main_v218 main_v222 main_v223 (addf : (⟨S4000000, .f32⟩ : BufTy).Contents (Elt F) → (⟨S4000000, .f32⟩ : BufTy).Contents (Elt F) → (⟨S4000000, .f32⟩ : BufTy).Contents (Elt F)),
    binary main_v174 main_v209 main_v224 (minimumf : (⟨S4000000, .f32⟩ : BufTy).Contents (Elt F) → (⟨S4000000, .f32⟩ : BufTy).Contents (Elt F) → (⟨S4000000, .f32⟩ : BufTy).Contents (Elt F)),
    binary main_v174 main_v209 main_v225 (maximumf : (⟨S4000000, .f32⟩ : BufTy).Contents (Elt F) → (⟨S4000000, .f32⟩ : BufTy).Contents (Elt F) → (⟨S4000000, .f32⟩ : BufTy).Contents (Elt F)),
    binary main_v224 main_v225 main_v226 (subf : (⟨S4000000, .f32⟩ : BufTy).Contents (Elt F) → (⟨S4000000, .f32⟩ : BufTy).Contents (Elt F) → (⟨S4000000, .f32⟩ : BufTy).Contents (Elt F)),
    nullary main_cst_37 (constant S_ .f32 0x24E69595#32),
    unary main_cst_37 main_v227 (broadcastInDim S4000000 ![] bcast_S_S4000000 : (⟨S_, .f32⟩ : BufTy).Contents (Elt F) → (⟨S4000000, .f32⟩ : BufTy).Contents (Elt F)),
    binary main_v226 main_v227 main_v228 (addf : (⟨S4000000, .f32⟩ : BufTy).Contents (Elt F) → (⟨S4000000, .f32⟩ : BufTy).Contents (Elt F) → (⟨S4000000, .f32⟩ : BufTy).Contents (Elt F)),
    binary main_v195 main_v223 main_v229 (minimumf : (⟨S4000000, .f32⟩ : BufTy).Contents (Elt F) → (⟨S4000000, .f32⟩ : BufTy).Contents (Elt F) → (⟨S4000000, .f32⟩ : BufTy).Contents (Elt F)),
    binary main_v188 main_v216 main_v230 (maximumf : (⟨S4000000, .f32⟩ : BufTy).Contents (Elt F) → (⟨S4000000, .f32⟩ : BufTy).Contents (Elt F) → (⟨S4000000, .f32⟩ : BufTy).Contents (Elt F)),
    binary main_v229 main_v230 main_v231 (subf : (⟨S4000000, .f32⟩ : BufTy).Contents (Elt F) → (⟨S4000000, .f32⟩ : BufTy).Contents (Elt F) → (⟨S4000000, .f32⟩ : BufTy).Contents (Elt F)),
    nullary main_cst_38 (constant S_ .f32 0x24E69595#32),
    unary main_cst_38 main_v232 (broadcastInDim S4000000 ![] bcast_S_S4000000 : (⟨S_, .f32⟩ : BufTy).Contents (Elt F) → (⟨S4000000, .f32⟩ : BufTy).Contents (Elt F)),
    binary main_v231 main_v232 main_v233 (addf : (⟨S4000000, .f32⟩ : BufTy).Contents (Elt F) → (⟨S4000000, .f32⟩ : BufTy).Contents (Elt F) → (⟨S4000000, .f32⟩ : BufTy).Contents (Elt F)),
    nullary main_cst_39 (constant S_ .f32 0x00000000#32),
    unary main_cst_39 main_v234 (broadcastInDim S4000000 ![] bcast_S_S4000000 : (⟨S_, .f32⟩ : BufTy).Contents (Elt F) → (⟨S4000000, .f32⟩ : BufTy).Contents (Elt F)),
    binary main_v228 main_v234 main_v235 (cmpf .ogt : (⟨S4000000, .f32⟩ : BufTy).Contents (Elt F) → (⟨S4000000, .f32⟩ : BufTy).Contents (Elt F) → (⟨S4000000, .i1⟩ : BufTy).Contents (Elt F)),
    nullary main_cst_40 (constant S_ .f32 0x00000000#32),
    unary main_cst_40 main_v236 (broadcastInDim S4000000 ![] bcast_S_S4000000 : (⟨S_, .f32⟩ : BufTy).Contents (Elt F) → (⟨S4000000, .f32⟩ : BufTy).Contents (Elt F)),
    binary main_v233 main_v236 main_v237 (cmpf .ogt : (⟨S4000000, .f32⟩ : BufTy).Contents (Elt F) → (⟨S4000000, .f32⟩ : BufTy).Contents (Elt F) → (⟨S4000000, .i1⟩ : BufTy).Contents (Elt F)),
    binary main_v235 main_v237 main_v238 (andi : (⟨S4000000, .i1⟩ : BufTy).Contents (Elt F) → (⟨S4000000, .i1⟩ : BufTy).Contents (Elt F) → (⟨S4000000, .i1⟩ : BufTy).Contents (Elt F)),
    binary main_v228 main_v233 main_v239 (mulf : (⟨S4000000, .f32⟩ : BufTy).Contents (Elt F) → (⟨S4000000, .f32⟩ : BufTy).Contents (Elt F) → (⟨S4000000, .f32⟩ : BufTy).Contents (Elt F)),
    nullary main_cst_41 (constant S_ .f32 0x00000000#32),
    TRef.unary (TRef.of (T := ⟨S_, .f32⟩) main_cst_41) (TRef.of (T := ⟨S_, .f32⟩) main_call2_v0) id,
    TRef.unary (TRef.of (T := ⟨S_, .f32⟩) main_call2_v0) (TRef.of (T := ⟨S4000000, .f32⟩) main_call2_v1) (broadcastInDim S4000000 ![] bcast_S_S4000000),
    TRef.ternary (TRef.of (T := ⟨S4000000, .i1⟩) main_v238) (TRef.of (T := ⟨S4000000, .f32⟩) main_v239) (TRef.of (T := ⟨S4000000, .f32⟩) main_call2_v1) (TRef.of (T := ⟨S4000000, .f32⟩) main_v240) select,
    binary main_v181 main_v209 main_v241 (maximumf : (⟨S4000000, .f32⟩ : BufTy).Contents (Elt F) → (⟨S4000000, .f32⟩ : BufTy).Contents (Elt F) → (⟨S4000000, .f32⟩ : BufTy).Contents (Elt F)),
    binary main_v174 main_v202 main_v242 (minimumf : (⟨S4000000, .f32⟩ : BufTy).Contents (Elt F) → (⟨S4000000, .f32⟩ : BufTy).Contents (Elt F) → (⟨S4000000, .f32⟩ : BufTy).Contents (Elt F)),
    binary main_v241 main_v242 main_v243 (subf : (⟨S4000000, .f32⟩ : BufTy).Contents (Elt F) → (⟨S4000000, .f32⟩ : BufTy).Contents (Elt F) → (⟨S4000000, .f32⟩ : BufTy).Contents (Elt F)),
    nullary main_cst_42 (constant S_ .f32 0x24E69595#32),
    unary main_cst_42 main_v244 (broadcastInDim S4000000 ![] bcast_S_S4000000 : (⟨S_, .f32⟩ : BufTy).Contents (Elt F) → (⟨S4000000, .f32⟩ : BufTy).Contents (Elt F)),
    binary main_v243 main_v244 main_v245 (addf : (⟨S4000000, .f32⟩ : BufTy).Contents (Elt F) → (⟨S4000000, .f32⟩ : BufTy).Contents (Elt F) → (⟨S4000000, .f32⟩ : BufTy).Contents (Elt F)),
    binary main_v195 main_v223 main_v246 (maximumf : (⟨S4000000, .f32⟩ : BufTy).Contents (Elt F) → (⟨S4000000, .f32⟩ : BufTy).Contents (Elt F) → (⟨S4000000, .f32⟩ : BufTy).Contents (Elt F)),
    binary main_v188 main_v216 main_v247 (minimumf : (⟨S4000000, .f32⟩ : BufTy).Contents (Elt F) → (⟨S4000000, .f32⟩ : BufTy).Contents (Elt F) → (⟨S4000000, .f32⟩ : BufTy).Contents (Elt F)),
    binary main_v246 main_v247 main_v248 (subf : (⟨S4000000, .f32⟩ : BufTy).Contents (Elt F) → (⟨S4000000, .f32⟩ : BufTy).Contents (Elt F) → (⟨S4000000, .f32⟩ : BufTy).Contents (Elt F)),
    nullary main_cst_43 (constant S_ .f32 0x24E69595#32),
    unary main_cst_43 main_v249 (broadcastInDim S4000000 ![] bcast_S_S4000000 : (⟨S_, .f32⟩ : BufTy).Contents (Elt F) → (⟨S4000000, .f32⟩ : BufTy).Contents (Elt F)),
    binary main_v248 main_v249 main_v250 (addf : (⟨S4000000, .f32⟩ : BufTy).Contents (Elt F) → (⟨S4000000, .f32⟩ : BufTy).Contents (Elt F) → (⟨S4000000, .f32⟩ : BufTy).Contents (Elt F)),
    binary main_v245 main_v250 main_v251 (mulf : (⟨S4000000, .f32⟩ : BufTy).Contents (Elt F) → (⟨S4000000, .f32⟩ : BufTy).Contents (Elt F) → (⟨S4000000, .f32⟩ : BufTy).Contents (Elt F)),
    unary main_arg0 main_v252 ((extractStridedSlice S4000000x1 ![0, 3] · slices_S4000000x7_S4000000x1_0_3) : (⟨S4000000x7, .f32⟩ : BufTy).Contents (Elt F) → (⟨S4000000x1, .f32⟩ : BufTy).Contents (Elt F)),
    reshape main_v252 main_v253 rfl shapeCasts_S4000000x1_S4000000,
    unary main_arg0 main_v254 ((extractStridedSlice S4000000x1 ![0, 5] · slices_S4000000x7_S4000000x1_0_5) : (⟨S4000000x7, .f32⟩ : BufTy).Contents (Elt F) → (⟨S4000000x1, .f32⟩ : BufTy).Contents (Elt F)) ]

set_option maxRecDepth 8192 in
set_option maxHeartbeats 4000000 in
/-- The printed window is its list run in order. -/
theorem part4_eq (c : Dev nD) : main_part4 (F := F) c = seq ops4 := rfl

set_option maxRecDepth 8192 in
/-- Every operation's buffers are TensorCore buffers. -/
theorem ops4_sub : (ops4 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., reshape_bufs_sub .., unary_bufs_sub ..⟩

/-- Every operation determines what it writes. -/
theorem ops4_fresh : ∀ op ∈ (ops4 : List (HloOp τ sig (Elt F))), op.fresh = ∅ := by
  intro _ h; (repeat (cases h with | head => rfl | tail _ h => ?_)); exact nomatch h

set_option maxRecDepth 8192 in
set_option maxHeartbeats 4000000 in
/-- What later windows read, after this window, holds its stage. -/
theorem step4 (x0 x1 : (⟨S4000000x7, .f32⟩ : BufTy).Contents (Elt F)) (W : Valuation τ sig (Elt F)) (h : Live4 x0 x1 W) :
    Live5 x0 x1 (after ops4 W) := by
  obtain ⟨h_arg0, h_arg1, h_v72, h_v83, h_v156, h_v174, h_v181, h_v188, h_v195, h_v202, h_v204⟩ := h
  refine ⟨?_, ?_, ?_, ?_, ?_, ?_, ?_, ?_, ?_⟩
  all_goals (after_results_simp; (try simp only [h_arg0, h_arg1, h_v72, h_v83, h_v156, h_v174, h_v181, h_v188, h_v195, h_v202, h_v204]); try rfl)

end Cert.ReferenceIdeal.RefRun

end
-- ==== Proof.RefWin5.lean ====
/-
  Window 5 of the reference's straight line: the 60 host operations that write `main_v255` … `main_v309`, as a list;
  the printed `main_part5` is that list run in order; and, if before it the argument arrays are as launched and the
  values it reads from earlier windows hold their stages (`Live5`), then after it the same holds of what later windows
  read (`Live6`): inside the window each operation's result is its function of its operands' contents, so each value
  is, by definition of the stages, its stage.
-/
import proofs.«121249_j56453050139230_2_alg».proof.Proof.RefLive

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- The window's operations, in order (a called function's operations stand in its call's place). -/
abbrev ops5 : List (HloOp τ sig (Elt F)) :=
  [ reshape main_v254 main_v255 rfl shapeCasts_S4000000x1_S4000000,
    binary main_v253 main_v255 main_v256 (mulf : (⟨S4000000, .f32⟩ : BufTy).Contents (Elt F) → (⟨S4000000, .f32⟩ : BufTy).Contents (Elt F) → (⟨S4000000, .f32⟩ : BufTy).Contents (Elt F)),
    unary main_arg1 main_v257 ((extractStridedSlice S4000000x1 ![0, 3] · slices_S4000000x7_S4000000x1_0_3) : (⟨S4000000x7, .f32⟩ : BufTy).Contents (Elt F) → (⟨S4000000x1, .f32⟩ : BufTy).Contents (Elt F)),
    reshape main_v257 main_v258 rfl shapeCasts_S4000000x1_S4000000,
    unary main_arg1 main_v259 ((extractStridedSlice S4000000x1 ![0, 5] · slices_S4000000x7_S4000000x1_0_5) : (⟨S4000000x7, .f32⟩ : BufTy).Contents (Elt F) → (⟨S4000000x1, .f32⟩ : BufTy).Contents (Elt F)),
    reshape main_v259 main_v260 rfl shapeCasts_S4000000x1_S4000000,
    binary main_v258 main_v260 main_v261 (mulf : (⟨S4000000, .f32⟩ : BufTy).Contents (Elt F) → (⟨S4000000, .f32⟩ : BufTy).Contents (Elt F) → (⟨S4000000, .f32⟩ : BufTy).Contents (Elt F)),
    binary main_v256 main_v261 main_v262 (addf : (⟨S4000000, .f32⟩ : BufTy).Contents (Elt F) → (⟨S4000000, .f32⟩ : BufTy).Contents (Elt F) → (⟨S4000000, .f32⟩ : BufTy).Contents (Elt F)),
    binary main_v262 main_v72 main_v263 (subf : (⟨S4000000, .f32⟩ : BufTy).Contents (Elt F) → (⟨S4000000, .f32⟩ : BufTy).Contents (Elt F) → (⟨S4000000, .f32⟩ : BufTy).Contents (Elt F)),
    binary main_v72 main_v263 main_v264 (Host.divf : (⟨S4000000, .f32⟩ : BufTy).Contents (Elt F) → (⟨S4000000, .f32⟩ : BufTy).Contents (Elt F) → (⟨S4000000, .f32⟩ : BufTy).Contents (Elt F)),
    binary main_v83 main_v263 main_v265 (subf : (⟨S4000000, .f32⟩ : BufTy).Contents (Elt F) → (⟨S4000000, .f32⟩ : BufTy).Contents (Elt F) → (⟨S4000000, .f32⟩ : BufTy).Contents (Elt F)),
    binary main_v265 main_v83 main_v266 (Host.divf : (⟨S4000000, .f32⟩ : BufTy).Contents (Elt F) → (⟨S4000000, .f32⟩ : BufTy).Contents (Elt F) → (⟨S4000000, .f32⟩ : BufTy).Contents (Elt F)),
    binary main_v264 main_v266 main_v267 (subf : (⟨S4000000, .f32⟩ : BufTy).Contents (Elt F) → (⟨S4000000, .f32⟩ : BufTy).Contents (Elt F) → (⟨S4000000, .f32⟩ : BufTy).Contents (Elt F)),
    unary main_arg0 main_v268 ((extractStridedSlice S4000000x1 ![0, 4] · slices_S4000000x7_S4000000x1_0_4) : (⟨S4000000x7, .f32⟩ : BufTy).Contents (Elt F) → (⟨S4000000x1, .f32⟩ : BufTy).Contents (Elt F)),
    reshape main_v268 main_v269 rfl shapeCasts_S4000000x1_S4000000,
    unary main_arg0 main_v270 ((extractStridedSlice S4000000x1 ![0, 5] · slices_S4000000x7_S4000000x1_0_5) : (⟨S4000000x7, .f32⟩ : BufTy).Contents (Elt F) → (⟨S4000000x1, .f32⟩ : BufTy).Contents (Elt F)),
    reshape main_v270 main_v271 rfl shapeCasts_S4000000x1_S4000000,
    binary main_v269 main_v271 main_v272 (mulf : (⟨S4000000, .f32⟩ : BufTy).Contents (Elt F) → (⟨S4000000, .f32⟩ : BufTy).Contents (Elt F) → (⟨S4000000, .f32⟩ : BufTy).Contents (Elt F)),
    unary main_arg1 main_v273 ((extractStridedSlice S4000000x1 ![0, 4] · slices_S4000000x7_S4000000x1_0_4) : (⟨S4000000x7, .f32⟩ : BufTy).Contents (Elt F) → (⟨S4000000x1, .f32⟩ : BufTy).Contents (Elt F)),
    reshape main_v273 main_v274 rfl shapeCasts_S4000000x1_S4000000,
    unary main_arg1 main_v275 ((extractStridedSlice S4000000x1 ![0, 5] · slices_S4000000x7_S4000000x1_0_5) : (⟨S4000000x7, .f32⟩ : BufTy).Contents (Elt F) → (⟨S4000000x1, .f32⟩ : BufTy).Contents (Elt F)),
    reshape main_v275 main_v276 rfl shapeCasts_S4000000x1_S4000000,
    binary main_v274 main_v276 main_v277 (mulf : (⟨S4000000, .f32⟩ : BufTy).Contents (Elt F) → (⟨S4000000, .f32⟩ : BufTy).Contents (Elt F) → (⟨S4000000, .f32⟩ : BufTy).Contents (Elt F)),
    binary main_v272 main_v277 main_v278 (addf : (⟨S4000000, .f32⟩ : BufTy).Contents (Elt F) → (⟨S4000000, .f32⟩ : BufTy).Contents (Elt F) → (⟨S4000000, .f32⟩ : BufTy).Contents (Elt F)),
    binary main_v278 main_v156 main_v279 (subf : (⟨S4000000, .f32⟩ : BufTy).Contents (Elt F) → (⟨S4000000, .f32⟩ : BufTy).Contents (Elt F) → (⟨S4000000, .f32⟩ : BufTy).Contents (Elt F)),
    binary main_v240 main_v279 main_v280 (Host.divf : (⟨S4000000, .f32⟩ : BufTy).Contents (Elt F) → (⟨S4000000, .f32⟩ : BufTy).Contents (Elt F) → (⟨S4000000, .f32⟩ : BufTy).Contents (Elt F)),
    binary main_v251 main_v279 main_v281 (subf : (⟨S4000000, .f32⟩ : BufTy).Contents (Elt F) → (⟨S4000000, .f32⟩ : BufTy).Contents (Elt F) → (⟨S4000000, .f32⟩ : BufTy).Contents (Elt F)),
    binary main_v281 main_v251 main_v282 (Host.divf : (⟨S4000000, .f32⟩ : BufTy).Contents (Elt F) → (⟨S4000000, .f32⟩ : BufTy).Contents (Elt F) → (⟨S4000000, .f32⟩ : BufTy).Contents (Elt F)),
    binary main_v280 main_v282 main_v283 (subf : (⟨S4000000, .f32⟩ : BufTy).Contents (Elt F) → (⟨S4000000, .f32⟩ : BufTy).Contents (Elt F) → (⟨S4000000, .f32⟩ : BufTy).Contents (Elt F)),
    unary main_arg0 main_v284 ((extractStridedSlice S4000000x1 ![0, 3] · slices_S4000000x7_S4000000x1_0_3) : (⟨S4000000x7, .f32⟩ : BufTy).Contents (Elt F) → (⟨S4000000x1, .f32⟩ : BufTy).Contents (Elt F)),
    reshape main_v284 main_v285 rfl shapeCasts_S4000000x1_S4000000,
    nullary main_cst_44 (constant S_ .f32 0x00000000#32),
    unary main_cst_44 main_v286 (broadcastInDim S4000000 ![] bcast_S_S4000000 : (⟨S_, .f32⟩ : BufTy).Contents (Elt F) → (⟨S4000000, .f32⟩ : BufTy).Contents (Elt F)),
    binary main_v285 main_v286 main_v287 (cmpf .ogt : (⟨S4000000, .f32⟩ : BufTy).Contents (Elt F) → (⟨S4000000, .f32⟩ : BufTy).Contents (Elt F) → (⟨S4000000, .i1⟩ : BufTy).Contents (Elt F)),
    unary main_arg0 main_v288 ((extractStridedSlice S4000000x1 ![0, 4] · slices_S4000000x7_S4000000x1_0_4) : (⟨S4000000x7, .f32⟩ : BufTy).Contents (Elt F) → (⟨S4000000x1, .f32⟩ : BufTy).Contents (Elt F)),
    reshape main_v288 main_v289 rfl shapeCasts_S4000000x1_S4000000,
    nullary main_cst_45 (constant S_ .f32 0x00000000#32),
    unary main_cst_45 main_v290 (broadcastInDim S4000000 ![] bcast_S_S4000000 : (⟨S_, .f32⟩ : BufTy).Contents (Elt F) → (⟨S4000000, .f32⟩ : BufTy).Contents (Elt F)),
    binary main_v289 main_v290 main_v291 (cmpf .ogt : (⟨S4000000, .f32⟩ : BufTy).Contents (Elt F) → (⟨S4000000, .f32⟩ : BufTy).Contents (Elt F) → (⟨S4000000, .i1⟩ : BufTy).Contents (Elt F)),
    binary main_v287 main_v291 main_v292 (andi : (⟨S4000000, .i1⟩ : BufTy).Contents (Elt F) → (⟨S4000000, .i1⟩ : BufTy).Contents (Elt F) → (⟨S4000000, .i1⟩ : BufTy).Contents (Elt F)),
    unary main_arg0 main_v293 ((extractStridedSlice S4000000x1 ![0, 5] · slices_S4000000x7_S4000000x1_0_5) : (⟨S4000000x7, .f32⟩ : BufTy).Contents (Elt F) → (⟨S4000000x1, .f32⟩ : BufTy).Contents (Elt F)),
    reshape main_v293 main_v294 rfl shapeCasts_S4000000x1_S4000000,
    nullary main_cst_46 (constant S_ .f32 0x00000000#32),
    unary main_cst_46 main_v295 (broadcastInDim S4000000 ![] bcast_S_S4000000 : (⟨S_, .f32⟩ : BufTy).Contents (Elt F) → (⟨S4000000, .f32⟩ : BufTy).Contents (Elt F)),
    binary main_v294 main_v295 main_v296 (cmpf .ogt : (⟨S4000000, .f32⟩ : BufTy).Contents (Elt F) → (⟨S4000000, .f32⟩ : BufTy).Contents (Elt F) → (⟨S4000000, .i1⟩ : BufTy).Contents (Elt F)),
    binary main_v292 main_v296 main_v297 (andi : (⟨S4000000, .i1⟩ : BufTy).Contents (Elt F) → (⟨S4000000, .i1⟩ : BufTy).Contents (Elt F) → (⟨S4000000, .i1⟩ : BufTy).Contents (Elt F)),
    unary main_arg1 main_v298 ((extractStridedSlice S4000000x1 ![0, 3] · slices_S4000000x7_S4000000x1_0_3) : (⟨S4000000x7, .f32⟩ : BufTy).Contents (Elt F) → (⟨S4000000x1, .f32⟩ : BufTy).Contents (Elt F)),
    reshape main_v298 main_v299 rfl shapeCasts_S4000000x1_S4000000,
    nullary main_cst_47 (constant S_ .f32 0x00000000#32),
    unary main_cst_47 main_v300 (broadcastInDim S4000000 ![] bcast_S_S4000000 : (⟨S_, .f32⟩ : BufTy).Contents (Elt F) → (⟨S4000000, .f32⟩ : BufTy).Contents (Elt F)),
    binary main_v299 main_v300 main_v301 (cmpf .ogt : (⟨S4000000, .f32⟩ : BufTy).Contents (Elt F) → (⟨S4000000, .f32⟩ : BufTy).Contents (Elt F) → (⟨S4000000, .i1⟩ : BufTy).Contents (Elt F)),
    binary main_v297 main_v301 main_v302 (andi : (⟨S4000000, .i1⟩ : BufTy).Contents (Elt F) → (⟨S4000000, .i1⟩ : BufTy).Contents (Elt F) → (⟨S4000000, .i1⟩ : BufTy).Contents (Elt F)),
    unary main_arg1 main_v303 ((extractStridedSlice S4000000x1 ![0, 4] · slices_S4000000x7_S4000000x1_0_4) : (⟨S4000000x7, .f32⟩ : BufTy).Contents (Elt F) → (⟨S4000000x1, .f32⟩ : BufTy).Contents (Elt F)),
    reshape main_v303 main_v304 rfl shapeCasts_S4000000x1_S4000000,
    nullary main_cst_48 (constant S_ .f32 0x00000000#32),
    unary main_cst_48 main_v305 (broadcastInDim S4000000 ![] bcast_S_S4000000 : (⟨S_, .f32⟩ : BufTy).Contents (Elt F) → (⟨S4000000, .f32⟩ : BufTy).Contents (Elt F)),
    binary main_v304 main_v305 main_v306 (cmpf .ogt : (⟨S4000000, .f32⟩ : BufTy).Contents (Elt F) → (⟨S4000000, .f32⟩ : BufTy).Contents (Elt F) → (⟨S4000000, .i1⟩ : BufTy).Contents (Elt F)),
    binary main_v302 main_v306 main_v307 (andi : (⟨S4000000, .i1⟩ : BufTy).Contents (Elt F) → (⟨S4000000, .i1⟩ : BufTy).Contents (Elt F) → (⟨S4000000, .i1⟩ : BufTy).Contents (Elt F)),
    unary main_arg1 main_v308 ((extractStridedSlice S4000000x1 ![0, 5] · slices_S4000000x7_S4000000x1_0_5) : (⟨S4000000x7, .f32⟩ : BufTy).Contents (Elt F) → (⟨S4000000x1, .f32⟩ : BufTy).Contents (Elt F)),
    reshape main_v308 main_v309 rfl shapeCasts_S4000000x1_S4000000 ]

set_option maxRecDepth 8192 in
set_option maxHeartbeats 4000000 in
/-- The printed window is its list run in order. -/
theorem part5_eq (c : Dev nD) : main_part5 (F := F) c = seq ops5 := rfl

set_option maxRecDepth 8192 in
/-- Every operation's buffers are TensorCore buffers. -/
theorem ops5_sub : (ops5 : List (HloOp τ sig (Elt F))).Forall fun op => op.bufs ⊆ tcRefs τ sig :=
  ⟨reshape_bufs_sub .., binary_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub ..⟩

/-- Every operation determines what it writes. -/
theorem ops5_fresh : ∀ op ∈ (ops5 : List (HloOp τ sig (Elt F))), op.fresh = ∅ := by
  intro _ h; (repeat (cases h with | head => rfl | tail _ h => ?_)); exact nomatch h

set_option maxRecDepth 8192 in
set_option maxHeartbeats 4000000 in
/-- What later windows read, after this window, holds its stage. -/
theorem step5 (x0 x1 : (⟨S4000000x7, .f32⟩ : BufTy).Contents (Elt F)) (W : Valuation τ sig (Elt F)) (h : Live5 x0 x1 W) :
    Live6 x0 x1 (after ops5 W) := by
  obtain ⟨h_arg0, h_arg1, h_v72, h_v83, h_v156, h_v240, h_v251, h_v253, h_v254⟩ := h
  refine ⟨?_, ?_, ?_, ?_, ?_, ?_⟩
  all_goals (after_results_simp; (try simp only [h_arg0, h_arg1, h_v72, h_v83, h_v156, h_v240, h_v251, h_v253, h_v254]); try rfl)

end Cert.ReferenceIdeal.RefRun

end
-- ==== Proof.RefWin6.lean ====
/-
  Window 6 of the reference's straight line: the 16 host operations that write `main_cst_49` … `main_v319`, as a list;
  the printed `main_part6` is that list run in order; and, if before it the argument arrays are as launched and the
  values it reads from earlier windows hold their stages (`Live6`), then after it the same holds of what later windows
  read (`Live7`): inside the window each operation's result is its function of its operands' contents, so each value
  is, by definition of the stages, its stage.
-/
import proofs.«121249_j56453050139230_2_alg».proof.Proof.RefLive

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- The window's operations, in order (a called function's operations stand in its call's place). -/
abbrev ops6 : List (HloOp τ sig (Elt F)) :=
  [ nullary main_cst_49 (constant S_ .f32 0x00000000#32),
    unary main_cst_49 main_v310 (broadcastInDim S4000000 ![] bcast_S_S4000000 : (⟨S_, .f32⟩ : BufTy).Contents (Elt F) → (⟨S4000000, .f32⟩ : BufTy).Contents (Elt F)),
    binary main_v309 main_v310 main_v311 (cmpf .ogt : (⟨S4000000, .f32⟩ : BufTy).Contents (Elt F) → (⟨S4000000, .f32⟩ : BufTy).Contents (Elt F) → (⟨S4000000, .i1⟩ : BufTy).Contents (Elt F)),
    binary main_v307 main_v311 main_v312 (andi : (⟨S4000000, .i1⟩ : BufTy).Contents (Elt F) → (⟨S4000000, .i1⟩ : BufTy).Contents (Elt F) → (⟨S4000000, .i1⟩ : BufTy).Contents (Elt F)),
    nullary main_cst_50 (constant S_ .f32 0x40000000#32),
    unary main_cst_50 main_v313 (broadcastInDim S4000000 ![] bcast_S_S4000000 : (⟨S_, .f32⟩ : BufTy).Contents (Elt F) → (⟨S4000000, .f32⟩ : BufTy).Contents (Elt F)),
    binary main_v313 main_v283 main_v314 (mulf : (⟨S4000000, .f32⟩ : BufTy).Contents (Elt F) → (⟨S4000000, .f32⟩ : BufTy).Contents (Elt F) → (⟨S4000000, .f32⟩ : BufTy).Contents (Elt F)),
    binary main_v267 main_v314 main_v315 (addf : (⟨S4000000, .f32⟩ : BufTy).Contents (Elt F) → (⟨S4000000, .f32⟩ : BufTy).Contents (Elt F) → (⟨S4000000, .f32⟩ : BufTy).Contents (Elt F)),
    nullary main_cst_51 (constant S_ .f32 0x40400000#32),
    unary main_cst_51 main_v316 (broadcastInDim S4000000 ![] bcast_S_S4000000 : (⟨S_, .f32⟩ : BufTy).Contents (Elt F) → (⟨S4000000, .f32⟩ : BufTy).Contents (Elt F)),
    binary main_v315 main_v316 main_v317 (Host.divf : (⟨S4000000, .f32⟩ : BufTy).Contents (Elt F) → (⟨S4000000, .f32⟩ : BufTy).Contents (Elt F) → (⟨S4000000, .f32⟩ : BufTy).Contents (Elt F)),
    nullary main_cst_52 (constant S_ .f32 0x00000000#32),
    TRef.unary (TRef.of (T := ⟨S_, .f32⟩) main_cst_52) (TRef.of (T := ⟨S_, .f32⟩) main_call3_v0) id,
    TRef.unary (TRef.of (T := ⟨S_, .f32⟩) main_call3_v0) (TRef.of (T := ⟨S4000000, .f32⟩) main_call3_v1) (broadcastInDim S4000000 ![] bcast_S_S4000000),
    TRef.ternary (TRef.of (T := ⟨S4000000, .i1⟩) main_v312) (TRef.of (T := ⟨S4000000, .f32⟩) main_v317) (TRef.of (T := ⟨S4000000, .f32⟩) main_call3_v1) (TRef.of (T := ⟨S4000000, .f32⟩) main_v318) select,
    unary main_v318 main_v319 (broadcastInDim S4000000x1 ![0] bcast_S4000000_S4000000x1_0 : (⟨S4000000, .f32⟩ : BufTy).Contents (Elt F) → (⟨S4000000x1, .f32⟩ : BufTy).Contents (Elt F)) ]

set_option maxRecDepth 8192 in
set_option maxHeartbeats 4000000 in
/-- The printed window is its list run in order. -/
theorem part6_eq (c : Dev nD) : main_part6 (F := F) c = seq ops6 := rfl

set_option maxRecDepth 8192 in
/-- Every operation's buffers are TensorCore buffers. -/
theorem ops6_sub : (ops6 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub ..⟩

/-- Every operation determines what it writes. -/
theorem ops6_fresh : ∀ op ∈ (ops6 : List (HloOp τ sig (Elt F))), op.fresh = ∅ := by
  intro _ h; (repeat (cases h with | head => rfl | tail _ h => ?_)); exact nomatch h

set_option maxRecDepth 8192 in
set_option maxHeartbeats 4000000 in
/-- What later windows read, after this window, holds its stage. -/
theorem step6 (x0 x1 : (⟨S4000000x7, .f32⟩ : BufTy).Contents (Elt F)) (W : Valuation τ sig (Elt F)) (h : Live6 x0 x1 W) :
    Live7 x0 x1 (after ops6 W) := by
  obtain ⟨h_arg0, h_arg1, h_v267, h_v283, h_v307, h_v309⟩ := h
  refine ⟨?_, ?_, ?_⟩
  all_goals (after_results_simp; (try simp only [h_arg0, h_arg1, h_v267, h_v283, h_v307, h_v309]); try rfl)

end Cert.ReferenceIdeal.RefRun

end
-- ==== Proof.RefRun.lean ====
/-
  The reference's run. Its @main is the seven windows one after the other, so it is the straight line of their
  concatenated operations; a straight line's run ends with every buffer at the fold of the operations' results over the
  launch contents; the fold over a concatenation is the fold over the second list of the fold over the first (the
  library's `after_append`); and the windows' steps, chained from "the arguments are as launched", end at: the result
  buffer holds the last stage `val_main_v319` of the two argument arrays, which are unchanged.
-/
import proofs.«121249_j56453050139230_2_alg».proof.Proof.RefWin0
import proofs.«121249_j56453050139230_2_alg».proof.Proof.RefWin1
import proofs.«121249_j56453050139230_2_alg».proof.Proof.RefWin2
import proofs.«121249_j56453050139230_2_alg».proof.Proof.RefWin3
import proofs.«121249_j56453050139230_2_alg».proof.Proof.RefWin4
import proofs.«121249_j56453050139230_2_alg».proof.Proof.RefWin5
import proofs.«121249_j56453050139230_2_alg».proof.Proof.RefWin6

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's operations: the seven windows' lists, in order. -/
def ops : List (HloOp τ sig (Elt F)) := ops0 ++ (ops1 ++ (ops2 ++ (ops3 ++ (ops4 ++ (ops5 ++ ops6)))))

/-- @main is that list run in order: each printed window is its list, and lists run one after the other are their
    concatenation run as one. -/
theorem main_eq (c : Dev nD) : main (F := F) c = seq ops := by
  unfold main ops
  simp only [seq_append, part0_eq, part1_eq, part2_eq, part3_eq, part4_eq, part5_eq, part6_eq]

theorem scopedRefs_eq : (Finset.univ.filter fun b : Ref sig .tc => b.isScoped) = ∅ := by decide
theorem scopedSems_eq : (Finset.univ.filter fun sm : SemLoc sig => sm.isScoped .tc) = ∅ := by decide

/-- An operation of the whole line is an operation of one window. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) ∨ op ∈ (ops5 : List (HloOp τ sig (Elt F)))
      ∨ op ∈ (ops6 : List (HloOp τ sig (Elt F))) := by
  unfold ops at h
  simpa only [List.mem_append] using h

theorem ops_sub : (ops : List (HloOp τ sig (Elt F))).Forall fun op => op.bufs ⊆ tcRefs τ sig :=
  List.forall_iff_forall_mem.mpr fun op h => by
    rcases mem_ops h with h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h

theorem ops_fresh : ∀ op ∈ (ops : List (HloOp τ sig (Elt F))), op.fresh = ∅ := fun op h => by
  rcases mem_ops h with h | h | h | h | h | h | h
  · exact ops0_fresh op h
  · exact ops1_fresh op h
  · exact ops2_fresh op h
  · exact ops3_fresh op h
  · exact ops4_fresh op h
  · exact ops5_fresh op h
  · exact ops6_fresh op h

/-- The fold of the whole line, from contents with the arguments at `x0`, `x1`: the windows' steps, chained. -/
theorem live_end (x0 x1 : (⟨S4000000x7, .f32⟩ : BufTy).Contents (Elt F)) (W : Valuation τ sig (Elt F))
    (h0 : W (Proc.devRef .tc main_arg0) = x0) (h1 : W (Proc.devRef .tc main_arg1) = x1) :
    Live7 x0 x1 (after ops W) := by
  unfold ops
  simp only [after_append]
  exact step6 x0 x1 _ (step5 x0 x1 _ (step4 x0 x1 _ (step3 x0 x1 _ (step2 x0 x1 _ (step1 x0 x1 _ (step0 x0 x1 W ⟨h0, h1⟩))))))

/-- THE REFERENCE'S RUN: every weakly fair execution terminates with the result buffer at the last stage of the argument
    arrays' launch contents, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v319)
          = val_main_v319 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨e0, e1, ev⟩ := live_end (F := F) (m ((c.tc : Thread nD τ).loc main_arg0)) (m ((c.tc : Thread nD τ).loc main_arg1))
        (launchContents m c) rfl rfl
      exact ⟨(h c main_v319).trans ev, (h c main_arg0).trans e0, (h c main_arg1).trans e1⟩)
    (run_seq scopedRefs_eq scopedSems_eq defs main (fun _ => ops) main_eq (fun _ => ops_sub) m ρ (fun _ => ops_fresh))

end Cert.ReferenceIdeal.RefRun

end
-- ==== Proof.RefRow.lean ====
/-
  The reference's last stage, read at one row.

  The reference slices a column `k` off an argument array ([N, 7] → [N, 1], then reshaped to [N]), works on such
  length-N arrays entry by entry, and ends by giving the result a trailing unit axis. Reading the last stage at row `r`
  therefore reads every operation at `r`: a column at `r` is the argument array at `(r, k)`, a broadcast scalar is the
  scalar, and every other operation is its scalar operation on its operands at `r`. What comes out is the row function
  `Cert.Giou.giou` of the two arrays' rows, with the host's quotient.
-/
import proofs.«121249_j56453050139230_2_alg».proof.Proof.RefStages
import proofs.«121249_j56453050139230_2_alg».proof.Proof.Giou
import Idealize.ShloMosaic.Lib.Pipeline.Value
import Idealize.ShloMosaic.Lib.ValueIdx

noncomputable section

namespace Cert.ReferenceIdeal.Row

open Cert.ReferenceIdeal Cert.ReferenceIdeal.Gen Cert.ReferenceIdeal.ReadP Idealize.ShloMosaic Idealize.ShloMosaic.ValueIdx Cert.Giou

variable {F : FTy → Type} [FloatOps F]

/-- Column `o` of an [N, 7] array, flattened to [N], read at `r`, is the array at `(r, o)`. -/
theorem column (o : Nat) (ho : o < 7) (x : (⟨S4000000x7, .f32⟩ : BufTy).Contents (Elt F))
    (h : S4000000x7.Slices ![0, o] S4000000x1) (hc : S4000000x1.ShapeCasts S4000000) (r : Fin 4000000) :
    shapeCast S4000000 (extractStridedSlice S4000000x1 ![0, o] x h) hc (ix1 r) = x (ix2 r (⟨o, ho⟩ : Fin 7)) := by
  rw [shapeCast_apply (extractStridedSlice S4000000x1 ![0, o] x h) hc (ix1 r) (ix2 r (0 : Fin 1))
    (by rewrite [Shape.rowMajor_val_two, Shape.rowMajor_val_one]; show r.val * 1 + 0 = r.val; omega)]
  exact extractStridedSlice_apply ![0, o] x h (ix2 r (0 : Fin 1)) (ix2 r (⟨o, ho⟩ : Fin 7)) (fun a => match a with
    | ⟨0, _⟩ => by show r.val = 0 + r.val; omega
    | ⟨1, _⟩ => by show o = o + 0; omega)

/-- A scalar broadcast to [N], read anywhere, is the scalar. -/
theorem splat {α : Type} (h : S_.BroadcastsInDim S4000000 ![]) (y : S_.Idx → α) (r : Fin 4000000) :
    broadcastInDim S4000000 ![] h y (ix1 r) = y ix0 :=
  broadcastInDim_apply _ h y (ix1 r) ix0 (fun a => a.elim0)

/-- The trailing unit axis: the [N, 1] result at `(r, 0)` is the [N] value at `r`. -/
theorem unit_axis {α : Type} (h : S4000000.BroadcastsInDim S4000000x1 ![0]) (y : S4000000.Idx → α) (r : Fin 4000000) :
    broadcastInDim S4000000x1 ![0] h y (ix2 r (0 : Fin 1)) = y (ix1 r) :=
  broadcastInDim_apply _ h y (ix2 r (0 : Fin 1)) (ix1 r) (fun a => match a with
    | ⟨0, _⟩ => by show r.val = if (4000000 : Nat) = 1 then 0 else r.val; rw [if_neg (by decide)])

set_option maxHeartbeats 4000000 in
/-- ROW `r` OF THE LAST STAGE is the row function of the two arrays' rows at `r`. -/
theorem last_apply (x0 x1 : (⟨S4000000x7, .f32⟩ : BufTy).Contents (Elt F)) (r : Fin 4000000) :
    val_main_v319 (F := F) x0 x1 (ix2 r (0 : Fin 1))
      = giou FloatOps.hostDivf (fun k => x0 (ix2 r k)) (fun k => x1 (ix2 r k)) := by
  unfold val_main_v319
  rw [unit_axis]
  simp only [val_main_cst, val_main_v4, val_main_cst_0, val_main_v11, val_main_cst_1, val_main_v18, val_main_cst_2, val_main_v25, val_main_cst_3, val_main_v32, val_main_cst_4, val_main_v39, val_main_cst_5, val_main_v46, val_main_cst_6, val_main_v53, val_main_cst_7, val_main_v59, val_main_cst_8, val_main_v64, val_main_cst_9, val_main_v66, val_main_cst_10, val_main_v68, val_main_cst_11, val_main_call0_v0, val_main_call0_v1, val_main_cst_12, val_main_v76, val_main_cst_13, val_main_v81, val_main_cst_14, val_main_v88, val_main_cst_15, val_main_v95, val_main_cst_16, val_main_v102, val_main_cst_17, val_main_v109, val_main_cst_18, val_main_v116, val_main_cst_19, val_main_v123, val_main_cst_20, val_main_v130, val_main_cst_21, val_main_v137, val_main_cst_22, val_main_v143, val_main_cst_23, val_main_v148, val_main_cst_24, val_main_v150, val_main_cst_25, val_main_v152, val_main_cst_26, val_main_call1_v0, val_main_call1_v1, val_main_cst_27, val_main_v160, val_main_cst_28, val_main_v165, val_main_cst_29, val_main_v172, val_main_cst_30, val_main_v179, val_main_cst_31, val_main_v186, val_main_cst_32, val_main_v193, val_main_cst_33, val_main_v200, val_main_cst_34, val_main_v207, val_main_cst_35, val_main_v214, val_main_cst_36, val_main_v221, val_main_cst_37, val_main_v227, val_main_cst_38, val_main_v232, val_main_cst_39, val_main_v234, val_main_cst_40, val_main_v236, val_main_cst_41, val_main_call2_v0, val_main_call2_v1, val_main_cst_42, val_main_v244, val_main_cst_43, val_main_v249, val_main_cst_44, val_main_v286, val_main_cst_45, val_main_v290, val_main_cst_46, val_main_v295, val_main_cst_47, val_main_v300, val_main_cst_48, val_main_v305, val_main_cst_49, val_main_v310, val_main_cst_50, val_main_v313, val_main_cst_51, val_main_v316, val_main_cst_52, val_main_call3_v0, val_main_call3_v1, val_main_v0, val_main_v1, val_main_v2, val_main_v3, val_main_v5, val_main_v6, val_main_v7, val_main_v8, val_main_v9, val_main_v10, val_main_v12, val_main_v13, val_main_v14, val_main_v15, val_main_v16, val_main_v17, val_main_v19, val_main_v20, val_main_v21, val_main_v22, val_main_v23, val_main_v24, val_main_v26, val_main_v27, val_main_v28, val_main_v29, val_main_v30, val_main_v31, val_main_v33, val_main_v34, val_main_v35, val_main_v36, val_main_v37, val_main_v38, val_main_v40, val_main_v41, val_main_v42, val_main_v43, val_main_v44, val_main_v45, val_main_v47, val_main_v48, val_main_v49, val_main_v50, val_main_v51, val_main_v52, val_main_v54, val_main_v55, val_main_v56, val_main_v57, val_main_v58, val_main_v60, val_main_v61, val_main_v62, val_main_v63, val_main_v65, val_main_v67, val_main_v69, val_main_v70, val_main_v71, val_main_v72, val_main_v73, val_main_v74, val_main_v75, val_main_v77, val_main_v78, val_main_v79, val_main_v80, val_main_v82, val_main_v83, val_main_v84, val_main_v85, val_main_v86, val_main_v87, val_main_v89, val_main_v90, val_main_v91, val_main_v92, val_main_v93, val_main_v94, val_main_v96, val_main_v97, val_main_v98, val_main_v99, val_main_v100, val_main_v101, val_main_v103, val_main_v104, val_main_v105, val_main_v106, val_main_v107, val_main_v108, val_main_v110, val_main_v111, val_main_v112, val_main_v113, val_main_v114, val_main_v115, val_main_v117, val_main_v118, val_main_v119, val_main_v120, val_main_v121, val_main_v122, val_main_v124, val_main_v125, val_main_v126, val_main_v127, val_main_v128, val_main_v129, val_main_v131, val_main_v132, val_main_v133, val_main_v134, val_main_v135, val_main_v136, val_main_v138, val_main_v139, val_main_v140, val_main_v141, val_main_v142, val_main_v144, val_main_v145, val_main_v146, val_main_v147, val_main_v149, val_main_v151, val_main_v153, val_main_v154, val_main_v155, val_main_v156, val_main_v157, val_main_v158, val_main_v159, val_main_v161, val_main_v162, val_main_v163, val_main_v164, val_main_v166, val_main_v167, val_main_v168, val_main_v169, val_main_v170, val_main_v171, val_main_v173, val_main_v174, val_main_v175, val_main_v176, val_main_v177, val_main_v178, val_main_v180, val_main_v181, val_main_v182, val_main_v183, val_main_v184, val_main_v185, val_main_v187, val_main_v188, val_main_v189, val_main_v190, val_main_v191, val_main_v192, val_main_v194, val_main_v195, val_main_v196, val_main_v197, val_main_v198, val_main_v199, val_main_v201, val_main_v202, val_main_v203, val_main_v204, val_main_v205, val_main_v206, val_main_v208, val_main_v209, val_main_v210, val_main_v211, val_main_v212, val_main_v213, val_main_v215, val_main_v216, val_main_v217, val_main_v218, val_main_v219, val_main_v220, val_main_v222, val_main_v223, val_main_v224, val_main_v225, val_main_v226, val_main_v228, val_main_v229, val_main_v230, val_main_v231, val_main_v233, val_main_v235, val_main_v237, val_main_v238, val_main_v239, val_main_v240, val_main_v241, val_main_v242, val_main_v243, val_main_v245, val_main_v246, val_main_v247, val_main_v248, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v287, val_main_v288, val_main_v289, val_main_v291, val_main_v292, val_main_v293, val_main_v294, val_main_v296, val_main_v297, val_main_v298, val_main_v299, val_main_v301, val_main_v302, val_main_v303, val_main_v304, val_main_v306, val_main_v307, val_main_v308, val_main_v309, val_main_v311, val_main_v312, val_main_v314, val_main_v315, val_main_v317, val_main_v318, val_main_v319]
  simp only [mulf, addf, subf, Host.divf, minimumf, maximumf, cmpf, andi, select, constant, id, splat,
    column 0 (by omega), column 1 (by omega), column 2 (by omega), column 3 (by omega),
    column 4 (by omega), column 5 (by omega)]
  rfl

end Cert.ReferenceIdeal.Row

end
-- ==== Proof.lean ====
/-
  Both programs compute, for each of the four million rows, one number from the row's seven entries in each of the two
  argument arrays: the row function `Cert.Giou.giou` (Proof/Giou.lean) — a blend of two coordinate planes' overlap
  ratios of the two boxes, zero unless all six box lengths are positive.

  The kernel transposes the arrays on the host, computes the function lane by lane over 125 column blocks, and reshapes
  the [1, N] row of values to [N, 1]; its result array is `Cert.KernelIdeal.Whole.result` of the argument arrays
  (Proof/KernelRow.lean: one lane of what the body stores; Proof/KernelValue.lean: the blocks, their cover, the reshape).
  The reference slices columns off the arrays and applies the same scalar operations in the same order to length-N
  arrays; its result is the last stage `val_main_v319` of the argument arrays (Proof/RefWin0–6.lean, Proof/RefRun.lean:
  the straight line read window by window), which at row `r` is the same row function (Proof/RefRow.lean).

  The two spellings differ only in the name of the quotient — the vector unit's and the host's — and on the extended
  reals these are one function; no law of arithmetic is used, so the inputs' finiteness is never needed. The three
  frames are the generated ones (the reference's is its run with the result dropped), and the idealization rewrote
  nothing, so there is nothing to preserve.
-/
import proofs.«121249_j56453050139230_2_alg».proof.Defs
import proofs.«121249_j56453050139230_2_alg».proof.Proof.Gen.Kernel
import proofs.«121249_j56453050139230_2_alg».proof.Proof.Gen.Kernel.Frame
import proofs.«121249_j56453050139230_2_alg».proof.Proof.Gen.KernelIdeal
import proofs.«121249_j56453050139230_2_alg».proof.Proof.Gen.KernelIdeal.Frame
import proofs.«121249_j56453050139230_2_alg».proof.Proof.Gen.ReferenceIdeal
import proofs.«121249_j56453050139230_2_alg».proof.Proof.Gen.Pre_finite_inputs
import proofs.«121249_j56453050139230_2_alg».proof.Proof.KernelValue
import proofs.«121249_j56453050139230_2_alg».proof.Proof.RefRun
import proofs.«121249_j56453050139230_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- At the ideal instance the reference's last stage and the kernel's result are one array: at row `r` both are the
    row function of row `r` of the two arrays, the host's quotient and the vector unit's being the same function there. -/
theorem results_agree (x0 x1 : (⟨Cert.KernelIdeal.S4000000x7, .f32⟩ : BufTy).Contents (Elt Ideal)) :
    Cert.ReferenceIdeal.ReadP.val_main_v319 (F := Ideal) x0 x1 = Cert.KernelIdeal.Whole.result (F := Ideal) x0 x1 := by
  funext i
  obtain ⟨r, z, rfl⟩ : ∃ (r : Fin 4000000) (z : Fin 1), i = ix2 r z := ⟨i 0, i 1, eq_ix2 i⟩
  obtain rfl : z = 0 := Subsingleton.elim _ _
  rw [Cert.ReferenceIdeal.Row.last_apply, Cert.KernelIdeal.Whole.result_apply]
  rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs run, from memories agreeing on the arguments, to one result array. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact results_agree _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
